-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S6 : Shape := ⟨1, ![6]⟩
abbrev S36x16x32x1 : Shape := ⟨4, ![36, 16, 32, 1]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S6 : S_.BroadcastsInDim S6 (![] : Fin 0 → Fin S6.rank)
  reducesTo_S6_S_d0 : S6.ReducesTo [0] S_
  bcast_S_S36x16x32x1 : S_.BroadcastsInDim S36x16x32x1 (![] : Fin 0 → Fin S36x16x32x1.rank)
  reducesTo_S36x16x32x1_S_d0_1_2_3 : S36x16x32x1.ReducesTo [0, 1, 2, 3] S_

variable [Facts]

def fn {F : FTy → Type} [FloatOps F] (main_arg0 : FVec F S262144x3 .f32) (main_arg1 : FVec F S6 .f32) (main_arg2 : FVec F S36x16x32x1 .f32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S6 .f32 := Host.absf main_arg1
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S36x16x32x1 .f32 := Host.absf main_arg2
  let main_cst_2 : FVec F S_ .f32 := constant S_ .f32 0x7F800000#32
  let main_v10 : FVec F S36x16x32x1 .f32 := broadcastInDim S36x16x32x1 ![] bcast_S_S36x16x32x1 main_cst_2
  let main_v11 : IVec S36x16x32x1 1 := cmpf .olt main_v9 main_v10
  let main_c_3 : IVec S_ 1 := constantI S_ 1 1#1
  let main_v12 : IVec S_ 1 := (fun x v => Host.reduce IntOp.andi x v reducesTo_S36x16x32x1_S_d0_1_2_3 h_S_) main_v11 main_c_3
  let main_v13 : IVec S_ 1 := andi main_v8 main_v12
  main_v13
-- ==== Kernel.lean ====
abbrev S262144x3 : Shape := ⟨2, ![262144, 3]⟩
abbrev S6 : Shape := ⟨1, ![6]⟩
abbrev S36x16x32x1 : Shape := ⟨4, ![36, 16, 32, 1]⟩
abbrev S36x16x32 : Shape := ⟨3, ![36, 16, 32]⟩
abbrev S1x6 : Shape := ⟨2, ![1, 6]⟩
abbrev S262144x576 : Shape := ⟨2, ![262144, 576]⟩
abbrev S2048x3 : Shape := ⟨2, ![2048, 3]⟩
abbrev S2048x576 : Shape := ⟨2, ![2048, 576]⟩
abbrev S2048x1x3 : Shape := ⟨3, ![2048, 1, 3]⟩
abbrev S1x6x1 : Shape := ⟨3, ![1, 6, 1]⟩
abbrev S2048x6x3 : Shape := ⟨3, ![2048, 6, 3]⟩
abbrev S2048x6 : Shape := ⟨2, ![2048, 6]⟩
abbrev S2048x36 : Shape := ⟨2, ![2048, 36]⟩
abbrev S2048x36x16 : Shape := ⟨3, ![2048, 36, 16]⟩
abbrev S36x16x1 : Shape := ⟨3, ![36, 16, 1]⟩
abbrev S36x16 : Shape := ⟨2, ![36, 16]⟩
abbrev S2048x36x1 : Shape := ⟨3, ![2048, 36, 1]⟩
abbrev S1x36x16 : Shape := ⟨3, ![1, 36, 16]⟩
abbrev S2048x16x36 : Shape := ⟨3, ![2048, 16, 36]⟩

abbrev nBuf : Space → Nat
  | .hbm => 6
  | .vmem => 6
  | .smem => 0
  | _ => 0

abbrev bufTy : (tb : Table) → Fin (tcTables nBuf tb) → BufTy
  | .hbm, ⟨0, _⟩ => ⟨S262144x3, .f32⟩
  | .hbm, ⟨1, _⟩ => ⟨S6, .f32⟩
  | .hbm, ⟨2, _⟩ => ⟨S36x16x32x1, .f32⟩
  | .hbm, ⟨3, _⟩ => ⟨S36x16x32, .f32⟩
  | .hbm, ⟨4, _⟩ => ⟨S1x6, .f32⟩
  | .hbm, ⟨5, _⟩ => ⟨S262144x576, .f32⟩
  | .local _ .vmem, ⟨0, _⟩ => ⟨S2048x3, .f32⟩
  | .local _ .vmem, ⟨1, _⟩ => ⟨S2048x3, .f32⟩
  | .local _ .vmem, ⟨2, _⟩ => ⟨S1x6, .f32⟩
  | .local _ .vmem, ⟨3, _⟩ => ⟨S36x16x32, .f32⟩
  | .local _ .vmem, ⟨4, _⟩ => ⟨S2048x576, .f32⟩
  | .local _ .vmem, ⟨5, _⟩ => ⟨S2048x576, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S36x16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S36x16x32x1_S36x16x32 : S36x16x32x1.ShapeCasts S36x16x32
  shapeCasts_S6_S1x6 : S6.ShapeCasts S1x6
  inb_S2048x3_S2048x3_0_0 : ∀ a, (![0, 0] : Fin 2 → Nat) a + S2048x3.size a ≤ S2048x3.size a
  h_S2048x3 : 0 < S2048x3.numel
  inb_S1x6_S1x6_0_0 : ∀ a, (![0, 0] : Fin 2 → Nat) a + S1x6.size a ≤ S1x6.size a
  h_S1x6 : 0 < S1x6.numel
  shapeCasts_S1x6_S6 : S1x6.ShapeCasts S6
  shapeCasts_S2048x3_S2048x1x3 : S2048x3.ShapeCasts S2048x1x3
  shapeCasts_S6_S1x6x1 : S6.ShapeCasts S1x6x1
  broadcasts_S2048x1x3_S2048x6x3 : S2048x1x3.Broadcasts S2048x6x3
  broadcasts_S1x6x1_S2048x6x3 : S1x6x1.Broadcasts S2048x6x3
  slices_S2048x6x3_o0_0_0_S2048x1x3 : S2048x6x3.Slices ![0, 0, 0] S2048x1x3
  shapeCasts_S2048x1x3_S2048x3 : S2048x1x3.ShapeCasts S2048x3
  concatenates_S2048x3_S2048x3_S2048x6_d1 : Shape.Concatenates [S2048x3, S2048x3] S2048x6 1
  slices_S2048x6x3_o0_1_0_S2048x1x3 : S2048x6x3.Slices ![0, 1, 0] S2048x1x3
  slices_S2048x6x3_o0_2_0_S2048x1x3 : S2048x6x3.Slices ![0, 2, 0] S2048x1x3
  slices_S2048x6x3_o0_3_0_S2048x1x3 : S2048x6x3.Slices ![0, 3, 0] S2048x1x3
  slices_S2048x6x3_o0_4_0_S2048x1x3 : S2048x6x3.Slices ![0, 4, 0] S2048x1x3
  slices_S2048x6x3_o0_5_0_S2048x1x3 : S2048x6x3.Slices ![0, 5, 0] S2048x1x3
  concatenates_S2048x6_S2048x6_S2048x6_S2048x6_S2048x6_S2048x6_S2048x36_d1 : Shape.Concatenates [S2048x6, S2048x6, S2048x6, S2048x6, S2048x6, S2048x6] S2048x36 1
  inb_S36x16x32_S36x16x32_0_0_0 : ∀ a, (![0, 0, 0] : Fin 3 → Nat) a + S36x16x32.size a ≤ S36x16x32.size a
  h_S36x16x32 : 0 < S36x16x32.numel
  shapeCasts_S36x16x32_S36x16x32 : S36x16x32.ShapeCasts S36x16x32
  slices_S36x16x32_o0_0_0_S36x16x1 : S36x16x32.Slices ![0, 0, 0] S36x16x1
  shapeCasts_S36x16x1_S36x16 : S36x16x1.ShapeCasts S36x16
  shapeCasts_S2048x36_S2048x36x1 : S2048x36.ShapeCasts S2048x36x1
  shapeCasts_S36x16_S1x36x16 : S36x16.ShapeCasts S1x36x16
  broadcasts_S2048x36x1_S2048x36x16 : S2048x36x1.Broadcasts S2048x36x16
  broadcasts_S1x36x16_S2048x36x16 : S1x36x16.Broadcasts S2048x36x16
  slices_S36x16x32_o0_0_1_S36x16x1 : S36x16x32.Slices ![0, 0, 1] S36x16x1
  slices_S36x16x32_o0_0_2_S36x16x1 : S36x16x32.Slices ![0, 0, 2] S36x16x1
  slices_S36x16x32_o0_0_3_S36x16x1 : S36x16x32.Slices ![0, 0, 3] S36x16x1
  slices_S36x16x32_o0_0_4_S36x16x1 : S36x16x32.Slices ![0, 0, 4] S36x16x1
  slices_S36x16x32_o0_0_5_S36x16x1 : S36x16x32.Slices ![0, 0, 5] S36x16x1
  slices_S36x16x32_o0_0_6_S36x16x1 : S36x16x32.Slices ![0, 0, 6] S36x16x1
  slices_S36x16x32_o0_0_7_S36x16x1 : S36x16x32.Slices ![0, 0, 7] S36x16x1
  slices_S36x16x32_o0_0_8_S36x16x1 : S36x16x32.Slices ![0, 0, 8] S36x16x1
  slices_S36x16x32_o0_0_9_S36x16x1 : S36x16x32.Slices ![0, 0, 9] S36x16x1
  slices_S36x16x32_o0_0_10_S36x16x1 : S36x16x32.Slices ![0, 0, 10] S36x16x1
  slices_S36x16x32_o0_0_11_S36x16x1 : S36x16x32.Slices ![0, 0, 11] S36x16x1
  slices_S36x16x32_o0_0_12_S36x16x1 : S36x16x32.Slices ![0, 0, 12] S36x16x1
  slices_S36x16x32_o0_0_13_S36x16x1 : S36x16x32.Slices ![0, 0, 13] S36x16x1
  slices_S36x16x32_o0_0_14_S36x16x1 : S36x16x32.Slices ![0, 0, 14] S36x16x1
  slices_S36x16x32_o0_0_15_S36x16x1 : S36x16x32.Slices ![0, 0, 15] S36x16x1
  slices_S36x16x32_o0_0_16_S36x16x1 : S36x16x32.Slices ![0, 0, 16] S36x16x1
  slices_S36x16x32_o0_0_17_S36x16x1 : S36x16x32.Slices ![0, 0, 17] S36x16x1
  slices_S36x16x32_o0_0_18_S36x16x1 : S36x16x32.Slices ![0, 0, 18] S36x16x1
  slices_S36x16x32_o0_0_19_S36x16x1 : S36x16x32.Slices ![0, 0, 19] S36x16x1
  slices_S36x16x32_o0_0_20_S36x16x1 : S36x16x32.Slices ![0, 0, 20] S36x16x1
  slices_S36x16x32_o0_0_21_S36x16x1 : S36x16x32.Slices ![0, 0, 21] S36x16x1
  slices_S36x16x32_o0_0_22_S36x16x1 : S36x16x32.Slices ![0, 0, 22] S36x16x1
  slices_S36x16x32_o0_0_23_S36x16x1 : S36x16x32.Slices ![0, 0, 23] S36x16x1
  slices_S36x16x32_o0_0_24_S36x16x1 : S36x16x32.Slices ![0, 0, 24] S36x16x1
  slices_S36x16x32_o0_0_25_S36x16x1 : S36x16x32.Slices ![0, 0, 25] S36x16x1
  slices_S36x16x32_o0_0_26_S36x16x1 : S36x16x32.Slices ![0, 0, 26] S36x16x1
  slices_S36x16x32_o0_0_27_S36x16x1 : S36x16x32.Slices ![0, 0, 27] S36x16x1
  slices_S36x16x32_o0_0_28_S36x16x1 : S36x16x32.Slices ![0, 0, 28] S36x16x1
  slices_S36x16x32_o0_0_29_S36x16x1 : S36x16x32.Slices ![0, 0, 29] S36x16x1
  slices_S36x16x32_o0_0_30_S36x16x1 : S36x16x32.Slices ![0, 0, 30] S36x16x1
  slices_S36x16x32_o0_0_31_S36x16x1 : S36x16x32.Slices ![0, 0, 31] S36x16x1
  transposes_S2048x36x16_p0_2_1_S2048x16x36 : S2048x36x16.Transposes [0, 2, 1] S2048x16x36
  shapeCasts_S2048x16x36_S2048x576 : S2048x16x36.ShapeCasts S2048x576
  inb_S2048x576_S2048x576_0_0 : ∀ a, (![0, 0] : Fin 2 → Nat) a + S2048x576.size a ≤ S2048x576.size a
  h_S2048x576 : 0 < S2048x576.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S262144x3.size a
  hwx0_0 : ∀ i : grid0.Coords, EltTy.bits .f32 = 32 ∨ (Rect.block (s := S262144x3) S2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x6.size a ≤ S1x6.size a
  hwx0_1 : ∀ i : grid0.Coords, EltTy.bits .f32 = 32 ∨ (Rect.block (s := S1x6) S1x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S36x16x32.size a ≤ S36x16x32.size a
  hwx0_2 : ∀ i : grid0.Coords, EltTy.bits .f32 = 32 ∨ (Rect.block (s := S36x16x32) S36x16x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x576.size a ≤ S262144x576.size a
  hwx0_3 : ∀ i : grid0.Coords, EltTy.bits .f32 = 32 ∨ (Rect.block (s := S262144x576) S2048x576.size (cc0_transform_3 i) (hinb0_3 i)).WholeWords (EltTy.packing .f32)

variable [Facts₀]

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x6.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S36x16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x576.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x3 : Shape := ⟨2, ![262144, 3]⟩
abbrev S6 : Shape := ⟨1, ![6]⟩
abbrev S36x16x32x1 : Shape := ⟨4, ![36, 16, 32, 1]⟩
abbrev S262144x1x3 : Shape := ⟨3, ![262144, 1, 3]⟩
abbrev S1x6x1 : Shape := ⟨3, ![1, 6, 1]⟩
abbrev S262144x6x3 : Shape := ⟨3, ![262144, 6, 3]⟩
abbrev S262144x6x1x3 : Shape := ⟨4, ![262144, 6, 1, 3]⟩
abbrev S262144x6x2x3 : Shape := ⟨4, ![262144, 6, 2, 3]⟩
abbrev S262144x36 : Shape := ⟨2, ![262144, 36]⟩
abbrev S36x262144 : Shape := ⟨2, ![36, 262144]⟩
abbrev S36x16x32 : Shape := ⟨3, ![36, 16, 32]⟩
abbrev S36x32x16 : Shape := ⟨3, ![36, 32, 16]⟩
abbrev S_ : Shape := ⟨0, ![]⟩
abbrev S36x262144x1 : Shape := ⟨3, ![36, 262144, 1]⟩
abbrev S36x262144x16 : Shape := ⟨3, ![36, 262144, 16]⟩
abbrev S36x16x262144 : Shape := ⟨3, ![36, 16, 262144]⟩
abbrev S6x3x2x16x262144 : Shape := ⟨5, ![6, 3, 2, 16, 262144]⟩
abbrev S6x3x2x1x262144 : Shape := ⟨5, ![6, 3, 2, 1, 262144]⟩
abbrev S262144x16x6x3x2 : Shape := ⟨5, ![262144, 16, 6, 3, 2]⟩
abbrev S262144x576 : Shape := ⟨2, ![262144, 576]⟩

abbrev nBuf : Space → Nat
  | .hbm => 83
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S6, .f32⟩
  | .hbm, ⟨2, _⟩ => ⟨S36x16x32x1, .f32⟩
  | .hbm, ⟨3, _⟩ => ⟨S262144x1x3, .f32⟩
  | .hbm, ⟨4, _⟩ => ⟨S1x6x1, .f32⟩
  | .hbm, ⟨5, _⟩ => ⟨S262144x6x3, .f32⟩
  | .hbm, ⟨6, _⟩ => ⟨S262144x6x3, .f32⟩
  | .hbm, ⟨7, _⟩ => ⟨S262144x6x3, .f32⟩
  | .hbm, ⟨8, _⟩ => ⟨S262144x6x3, .f32⟩
  | .hbm, ⟨9, _⟩ => ⟨S262144x6x3, .f32⟩
  | .hbm, ⟨10, _⟩ => ⟨S262144x6x1x3, .f32⟩
  | .hbm, ⟨11, _⟩ => ⟨S262144x6x1x3, .f32⟩
  | .hbm, ⟨12, _⟩ => ⟨S262144x6x2x3, .f32⟩
  | .hbm, ⟨13, _⟩ => ⟨S262144x36, .f32⟩
  | .hbm, ⟨14, _⟩ => ⟨S36x262144, .f32⟩
  | .hbm, ⟨15, _⟩ => ⟨S36x16x32, .f32⟩
  | .hbm, ⟨16, _⟩ => ⟨S36x32x16, .f32⟩
  | .hbm, ⟨17, _⟩ => ⟨S_, .f32⟩
  | .hbm, ⟨18, _⟩ => ⟨S36x262144, .f32⟩
  | .hbm, ⟨19, _⟩ => ⟨S36x262144, .f32⟩
  | .hbm, ⟨20, _⟩ => ⟨S_, .f32⟩
  | .hbm, ⟨21, _⟩ => ⟨S36x262144, .f32⟩
  | .hbm, ⟨22, _⟩ => ⟨S36x262144, .f32⟩
  | .hbm, ⟨23, _⟩ => ⟨S_, .f32⟩
  | .hbm, ⟨24, _⟩ => ⟨S36x262144, .f32⟩
  | .hbm, ⟨25, _⟩ => ⟨S36x262144, .f32⟩
  | .hbm, ⟨26, _⟩ => ⟨S36x262144, .f32⟩
  | .hbm, ⟨27, _⟩ => ⟨S36x262144, .f32⟩
  | .hbm, ⟨28, _⟩ => ⟨S36x262144, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S36x262144, .i32⟩
  | .hbm, ⟨33, _⟩ => ⟨S36x262144, .i32⟩
  | .hbm, ⟨34, _⟩ => ⟨S_, .i32⟩
  | .hbm, ⟨35, _⟩ => ⟨S36x262144, .i32⟩
  | .hbm, ⟨36, _⟩ => ⟨S36x262144, .i32⟩
  | .hbm, ⟨37, _⟩ => ⟨S_, .i32⟩
  | .hbm, ⟨38, _⟩ => ⟨S36x262144, .i32⟩
  | .hbm, ⟨39, _⟩ => ⟨S36x262144, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S36x262144, .i32⟩
  | .hbm, ⟨44, _⟩ => ⟨S36x262144, .i32⟩
  | .hbm, ⟨45, _⟩ => ⟨S_, .i32⟩
  | .hbm, ⟨46, _⟩ => ⟨S36x262144, .i32⟩
  | .hbm, ⟨47, _⟩ => ⟨S36x262144, .i32⟩
  | .hbm, ⟨48, _⟩ => ⟨S_, .i32⟩
  | .hbm, ⟨49, _⟩ => ⟨S36x262144, .i32⟩
  | .hbm, ⟨50, _⟩ => ⟨S36x262144, .i1⟩
  | .hbm, ⟨51, _⟩ => ⟨S_, .i32⟩
  | .hbm, ⟨52, _⟩ => ⟨S36x262144, .i32⟩
  | .hbm, ⟨53, _⟩ => ⟨S36x262144, .i32⟩
  | .hbm, ⟨54, _⟩ => ⟨S36x262144, .i32⟩
  | .hbm, ⟨55, _⟩ => ⟨S36x262144x1, .i32⟩
  | .hbm, ⟨56, _⟩ => ⟨S36x262144x16, .f32⟩
  | .hbm, ⟨57, _⟩ => ⟨S_, .i32⟩
  | .hbm, ⟨58, _⟩ => ⟨S36x262144, .i32⟩
  | .hbm, ⟨59, _⟩ => ⟨S36x262144, .i1⟩
  | .hbm, ⟨60, _⟩ => ⟨S_, .i32⟩
  | .hbm, ⟨61, _⟩ => ⟨S36x262144, .i32⟩
  | .hbm, ⟨62, _⟩ => ⟨S36x262144, .i32⟩
  | .hbm, ⟨63, _⟩ => ⟨S36x262144, .i32⟩
  | .hbm, ⟨64, _⟩ => ⟨S36x262144x1, .i32⟩
  | .hbm, ⟨65, _⟩ => ⟨S36x262144x16, .f32⟩
  | .hbm, ⟨66, _⟩ => ⟨S_, .f32⟩
  | .hbm, ⟨67, _⟩ => ⟨S36x262144, .f32⟩
  | .hbm, ⟨68, _⟩ => ⟨S36x262144, .f32⟩
  | .hbm, ⟨69, _⟩ => ⟨S36x262144x1, .f32⟩
  | .hbm, ⟨70, _⟩ => ⟨S36x262144x16, .f32⟩
  | .hbm, ⟨71, _⟩ => ⟨S36x262144x16, .f32⟩
  | .hbm, ⟨72, _⟩ => ⟨S36x262144x1, .f32⟩
  | .hbm, ⟨73, _⟩ => ⟨S36x262144x16, .f32⟩
  | .hbm, ⟨74, _⟩ => ⟨S36x262144x16, .f32⟩
  | .hbm, ⟨75, _⟩ => ⟨S36x262144x16, .f32⟩
  | .hbm, ⟨76, _⟩ => ⟨S36x16x262144, .f32⟩
  | .hbm, ⟨77, _⟩ => ⟨S6x3x2x16x262144, .f32⟩
  | .hbm, ⟨78, _⟩ => ⟨S6x3x2x1x262144, .f32⟩
  | .hbm, ⟨79, _⟩ => ⟨S6x3x2x16x262144, .f32⟩
  | .hbm, ⟨80, _⟩ => ⟨S6x3x2x16x262144, .f32⟩
  | .hbm, ⟨81, _⟩ => ⟨S262144x16x6x3x2, .f32⟩
  | .hbm, ⟨82, _⟩ => ⟨S262144x576, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_c_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_8 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  bcast_S262144x3_S262144x1x3_0_2 : S262144x3.BroadcastsInDim S262144x1x3 (![0, 2] : Fin 2 → Fin S262144x1x3.rank)
  bcast_S6_S1x6x1_1 : S6.BroadcastsInDim S1x6x1 (![1] : Fin 1 → Fin S1x6x1.rank)
  bcast_S262144x1x3_S262144x6x3_0_1_2 : S262144x1x3.BroadcastsInDim S262144x6x3 (![0, 1, 2] : Fin 3 → Fin S262144x6x3.rank)
  bcast_S1x6x1_S262144x6x3_0_1_2 : S1x6x1.BroadcastsInDim S262144x6x3 (![0, 1, 2] : Fin 3 → Fin S262144x6x3.rank)
  bcast_S262144x6x3_S262144x6x1x3_0_1_3 : S262144x6x3.BroadcastsInDim S262144x6x1x3 (![0, 1, 3] : Fin 3 → Fin S262144x6x1x3.rank)
  concatenates_S262144x6x1x3_S262144x6x1x3_S262144x6x2x3_d2 : Shape.Concatenates [S262144x6x1x3, S262144x6x1x3] S262144x6x2x3 2
  shapeCasts_S262144x6x2x3_S262144x36 : S262144x6x2x3.ShapeCasts S262144x36
  transposes_S262144x36_S36x262144_1_0 : S262144x36.Transposes [1, 0] S36x262144
  shapeCasts_S36x16x32x1_S36x16x32 : S36x16x32x1.ShapeCasts S36x16x32
  transposes_S36x16x32_S36x32x16_0_2_1 : S36x16x32.Transposes [0, 2, 1] S36x32x16
  bcast_S_S36x262144 : S_.BroadcastsInDim S36x262144 (![] : Fin 0 → Fin S36x262144.rank)
  bcast_S36x262144_S36x262144x1_0_1 : S36x262144.BroadcastsInDim S36x262144x1 (![0, 1] : Fin 2 → Fin S36x262144x1.rank)
  bcast_S36x262144x1_S36x262144x16_0_1_2 : S36x262144x1.BroadcastsInDim S36x262144x16 (![0, 1, 2] : Fin 3 → Fin S36x262144x16.rank)
  transposes_S36x262144x16_S36x16x262144_0_2_1 : S36x262144x16.Transposes [0, 2, 1] S36x16x262144
  shapeCasts_S36x16x262144_S6x3x2x16x262144 : S36x16x262144.ShapeCasts S6x3x2x16x262144
  shapeCasts_S36x262144_S6x3x2x1x262144 : S36x262144.ShapeCasts S6x3x2x1x262144
  bcast_S6x3x2x1x262144_S6x3x2x16x262144_0_1_2_3_4 : S6x3x2x1x262144.BroadcastsInDim S6x3x2x16x262144 (![0, 1, 2, 3, 4] : Fin 5 → Fin S6x3x2x16x262144.rank)
  transposes_S6x3x2x16x262144_S262144x16x6x3x2_4_3_0_1_2 : S6x3x2x16x262144.Transposes [4, 3, 0, 1, 2] S262144x16x6x3x2
  shapeCasts_S262144x16x6x3x2_S262144x576 : S262144x16x6x3x2.ShapeCasts S262144x576
  gather_S36x32x16_S36x262144x1_S36x262144x16_2_1_0_0_1_2_1116_wf : GatherDims.WF S36x32x16 S36x262144x1 S36x262144x16 [2] [1] [0] [1] [0] 2 ![1, 1, 16]

variable [Facts₀]

def gather_S36x32x16_S36x262144x1_S36x262144x16_2_1_0_0_1_2_1116 : GatherDims S36x32x16 S36x262144x1 S36x262144x16 where
  offsetDims := [2]
  collapsedSliceDims := [1]
  operandBatchingDims := [0]
  startIndicesBatchingDims := [0]
  startIndexMap := [1]
  indexVectorDim := 2
  sliceSizes := ![1, 1, 16]
  wf := gather_S36x32x16_S36x262144x1_S36x262144x16_2_1_0_0_1_2_1116_wf

class Facts : Prop extends Facts₀ where

variable [Facts]
-- ==== Proof.FiniteArgs.lean ====
import proofs.«109105_j28028956573735_2_alg».proof.Defs
import proofs.«109105_j28028956573735_2_alg».proof.Proof.Gen.Pre_finite_inputs
import Idealize.ShloMosaic.Lib.ReduceAll
import Idealize.ShloMosaic.Lib.IdealHost

noncomputable section

namespace Cert.FiniteArgs

open Idealize.ShloMosaic Idealize.ShloMosaic.ValueIdx Cert.Pre_finite_inputs

/-- The f32 pattern `0x7F800000` denotes `+∞`. -/
theorem ofBits_inf : Ideal.ofBits .f32 0x7F800000#32 = (⊤ : EReal) := by simp [Ideal.ofBits, Ideal.ieee]

/-- An extended real whose absolute value `max x (-x)` is strictly below `+∞` is a real number:
    at `⊥` and at `⊤` the absolute value is `⊤`, which is not below itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- One conjunct of the precondition: if the conjunction over all indices of `|x i| < +∞` is 1,
    every entry of `x` is a real number. -/
theorem all_real {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant S_ .f32 0x7F800000#32)))
          (constantI S_ 1 1#1) hr hu ix0 = 1#1) (i : s.Idx) : ∃ r : ℝ, x i = (r : EReal) :=
  real_of_abs_lt_inf (x i) (Host.reduce_andi_all _ _ hr hu ix0 h i)

/-- The precondition at the ideal instance says that every entry of the three arguments is a real number. -/
theorem real_of_fn [Cert.Pre_finite_inputs.Facts] (x0 : FVec Ideal S262144x3 .f32) (x1 : FVec Ideal S6 .f32)
    (x2 : FVec Ideal S36x16x32x1 .f32)
    (h : Cert.Pre_finite_inputs.fn (F := Ideal) x0 x1 x2 = (fun _ => 1#1)) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨all_real x0 _ _ _ h0', all_real x1 _ _ _ h1, all_real x2 _ _ _ h2⟩

end Cert.FiniteArgs
-- ==== Proof.LibRank3Layout.lean ====
/-
  Layout operations on rank-3 shapes, read at an index given by its coordinates.

  * A matrix `[a, b]` cast to `[a, b, 1]` (a trailing unit axis added): the element at `(i, j, u)` is the
    matrix's at `(i, j)`; both indices sit at the same row-major position, since the unit coordinate is `0`.
  * An `[a, b, 1]` array broadcast to `[a, b, c]`: the element at `(i, j, k)` is the operand's at `(i, j, 0)`;
    the broadcast copies along the unit axis and keeps the other two coordinates.
  * A `[1, b, c]` array broadcast to `[a, b, c]`: the element at `(i, j, k)` is the operand's one matrix at
    `(j, k)`, whatever the leading coordinate.
-/
import Idealize.ShloMosaic.Lib.ValueLayout

namespace Cert.LibRank3Layout

open Idealize.ShloMosaic Idealize.ShloMosaic.ValueIdx

variable {α : Type}

/-- An `[a, b]` array cast to `[a, b, 1]` reads, at `(i, j, u)`, the operand at `(i, j)`, whatever the unit
    coordinate `u`: the row-major positions are `i * b + j` and `(i * b + j) * 1 + u` with `u = 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibRank3Layout
-- ==== Proof.LibRowSpread.lean ====
/-
  Layout operations that spread a matrix or one row of a table over a further axis, and a transposed merge, read at an
  index given by its coordinates; the sizes are arbitrary naturals.

  * A rank-3 array cut along its LAST axis from `o`: the element at `(a, b, j)` is the source's at `(a, b, o + j)`.
  * An `[a, b, 1]` array cast to `[a, b]`: the element at `(i, j)` is the operand's at `(i, j, 0)`.
  * A weight per (point, channel), spread over the features: an `[a, b]` matrix given a trailing unit axis and
    broadcast to `[a, b, c]` reads, at `(i, j, k)`, the matrix at `(i, j)`.
  * One row `r` of a table `[a, b, d]` (its last axis the rows), spread over the points: the slice `[:, :, r]`
    cast to `[a, b]`, then to `[1, a, b]`, and broadcast to `[p, a, b]` reads, at `(n, i, j)`, the table at `(i, j, r)`.
  * A `[p, a, b]` array with its last two axes exchanged and then merged: the element at `(n, a·c + g)` is the
    array's at `(n, g, c)`.
-/
import proofs.«109105_j28028956573735_2_alg».proof.Proof.LibRank3Layout
import Idealize.ShloMosaic.Lib.Pipeline.Value
import Idealize.ShloMosaic.Lib.ValueIdx
import Idealize.ShloMosaic.Lib.ValueLayout

namespace Cert.LibRowSpread

open Idealize.ShloMosaic Idealize.ShloMosaic.ValueIdx

variable {α : Type}

/-- A rank-3 array cut along axis 2 from `o` reads, at `(a, b, j)`, the source at `(a, b, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array cast to `[a, b]` reads, at `(i, j)`, the operand at `(i, j, 0)`: the row-major positions
    are `(i · b + j) · 1 + 0` and `i · b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- A matrix given a trailing unit axis and broadcast along it reads, at `(i, j, k)`, the matrix at `(i, j)`. -/
theorem spread_weight {a b c : ℕ} (X : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ X h1) h2 (ix3 i j k) = X (ix2 i j) := by
  rw [Cert.LibRank3Layout.broadcastTo_ab1_abc_apply, Cert.LibRank3Layout.shapeCast_ab_ab1_apply]

/-- Row `r` of a table whose last axis are the rows, spread over a leading axis of points, reads, at `(n, i, j)`,
    the table at `(i, j, r)`. -/
theorem spread_row {p a b d : ℕ} (T : (⟨3, ![a, b, d]⟩ : Shape).Idx → α) (r : ℕ) (hr : r < d)
    (h0 : (⟨3, ![a, b, d]⟩ : Shape).Slices ![0, 0, r] ⟨3, ![a, b, 1]⟩)
    (h1 : (⟨3, ![a, b, 1]⟩ : Shape).ShapeCasts ⟨2, ![a, b]⟩)
    (h2 : (⟨2, ![a, b]⟩ : Shape).ShapeCasts ⟨3, ![1, a, b]⟩)
    (h3 : (⟨3, ![1, a, b]⟩ : Shape).Broadcasts ⟨3, ![p, a, b]⟩) (n : Fin p) (i : Fin a) (j : Fin b) :
    broadcastTo ⟨3, ![p, a, b]⟩
        (shapeCast ⟨3, ![1, a, b]⟩ (shapeCast ⟨2, ![a, b]⟩ (extractStridedSlice ⟨3, ![a, b, 1]⟩ ![0, 0, r] T h0) h1) h2) h3
        (ix3 n i j) = T (ix3 i j ⟨r, hr⟩) := by
  rw [Cert.LibRank3Layout.broadcastTo_1bc_abc_apply, shapeCast_ab_1ab_apply, shapeCast_ab1_ab_apply,
    slice3_axis2_apply r T h0 i j (0 : Fin 1) ⟨r, hr⟩ rfl]

/-- A `[p, a, b]` array with its last two axes exchanged, then merged into one of length `m = b · a`, reads, at
    `(n, J)` with `J = c · a + g`, the array at `(n, g, c)`. -/
theorem merge_exchanged {p a b m : ℕ} (X : (⟨3, ![p, a, b]⟩ : Shape).Idx → α)
    (ht : (⟨3, ![p, a, b]⟩ : Shape).Transposes [0, 2, 1] ⟨3, ![p, b, a]⟩)
    (hc : (⟨3, ![p, b, a]⟩ : Shape).ShapeCasts ⟨2, ![p, m]⟩) (hm : m = b * a)
    (n : Fin p) (g : Fin a) (c : Fin b) (J : Fin m) (hJ : J.val = c.val * a + g.val) :
    shapeCast ⟨2, ![p, m]⟩ (transpose ⟨3, ![p, b, a]⟩ [0, 2, 1] X ht) hc (ix2 n J) = X (ix3 n g c) := by
  rw [shapeCast_apply _ hc (ix2 n J) (ix3 n c g) (by
    rw [Shape.rowMajor_val_three, Shape.rowMajor_val_two]
    show (n.val * b + c.val) * a + g.val = n.val * m + J.val
    rw [hJ, hm]; ring), transpose_ix3_021_apply]

end Cert.LibRowSpread
-- ==== Proof.Spec.lean ====
/-
  The function both programs compute, index by index, over the extended reals.

  A point `n` and an encoded channel `g = 6·f + 3·s + k` (frequency `f`, `s = 0` for the sine and `1` for the
  cosine, coordinate `k`) give the encoding `e = sin (p[n,k] · q[f])` or `cos (p[n,k] · q[f])`. The encoding is mapped
  to a position `y = (e + 1) · ½ · 31` on a 32-row table; with `⌊y⌋` the row below, `w = y − ⌊y⌋` the weight of the
  row above, `lo` the row below clamped to `[0, 31]` and `hi = lo + 1` clamped again, the result at `(n, 36·c + g)`
  is the linear interpolation `T[g,c,lo] · (1 − w) + T[g,c,hi] · w` of the table, plus `e`.
-/
import Idealize.ShloMosaic.PureOps.Ideal
import Idealize.ShloMosaic.Lib.ValueIdx

noncomputable section

namespace Cert.TentSpec

open Idealize.ShloMosaic Idealize.ShloMosaic.ValueIdx

/-- The three float constants of the position map, as the patterns both programs print. -/
def one : EReal := Ideal.ofBits .f32 0x3F800000#32
def half : EReal := Ideal.ofBits .f32 0x3F000000#32
def rows : EReal := Ideal.ofBits .f32 0x41F80000#32

/-- The coordinate `k = g mod 3` and the frequency `f = g / 6` of an encoded channel. -/
def coordOf (g : Fin 36) : Fin 3 := ⟨g.val % 3, Nat.mod_lt _ (by decide)⟩
def freqOf (g : Fin 36) : Fin 6 := ⟨g.val / 6, by have := g.isLt; omega⟩

/-- The angle `p[n,k] · q[f]` of channel `g` at point `n`. -/
def angle (P : (⟨2, ![262144, 3]⟩ : Shape).Idx → EReal) (Q : (⟨1, ![6]⟩ : Shape).Idx → EReal)
    (n : Fin 262144) (g : Fin 36) : EReal :=
  P (ix2 n (coordOf g)) * Q (ix1 (freqOf g))

/-- The encoding: the sine of the angle on the first three channels of each group of six, the cosine on the last three. -/
def enc (P : (⟨2, ![262144, 3]⟩ : Shape).Idx → EReal) (Q : (⟨1, ![6]⟩ : Shape).Idx → EReal)
    (n : Fin 262144) (g : Fin 36) : EReal :=
  if g.val % 6 < 3 then Ideal.sin (angle P Q n g) else Ideal.cos (angle P Q n g)

/-- The position on the table's row axis. -/
def pos (e : EReal) : EReal := (e + one) * half * rows

/-- The weight of the upper row: the position's fractional part. -/
def wgt (e : EReal) : EReal := pos e - Ideal.liftRound Int.floor (pos e)

/-- A 32-bit integer clamped to `[0, 31]` (as signed numbers): first raised to `0`, then lowered to `31`. -/
def clampRow (q : BitVec 32) : BitVec 32 := IntOp.minsi 31#32 (IntOp.maxsi 0#32 q)

/-- The lower row and the upper row. -/
def lo (e : EReal) : BitVec 32 := clampRow (Ideal.fptosi 32 (Ideal.liftRound Int.floor (pos e)))
def hi (e : EReal) : BitVec 32 := clampRow (IntOp.addi (lo e) 1#32)

/-- A clamped row as an index of the table's 32-row axis. -/
def rowIx (i : BitVec 32) : Fin 32 := ⟨i.toNat % 32, Nat.mod_lt _ (by decide)⟩

/-- The result at point `n`, feature `c` and channel `g`. -/
def interp (P : (⟨2, ![262144, 3]⟩ : Shape).Idx → EReal) (Q : (⟨1, ![6]⟩ : Shape).Idx → EReal)
    (T : (⟨4, ![36, 16, 32, 1]⟩ : Shape).Idx → EReal) (n : Fin 262144) (c : Fin 16) (g : Fin 36) : EReal :=
  T (ix4 g c (rowIx (lo (enc P Q n g))) (0 : Fin 1)) * (one - wgt (enc P Q n g))
    + T (ix4 g c (rowIx (hi (enc P Q n g))) (0 : Fin 1)) * wgt (enc P Q n g)
    + enc P Q n g

/-- The column `j = 36·c + g` split into the feature `c` and the channel `g`. -/
def featOf (j : Fin 576) : Fin 16 := ⟨j.val / 36, by have := j.isLt; omega⟩
def chanOf (j : Fin 576) : Fin 36 := ⟨j.val % 36, Nat.mod_lt _ (by decide)⟩

/-- The whole result array as one function of the three argument arrays. -/
def result (P : (⟨2, ![262144, 3]⟩ : Shape).Idx → EReal) (Q : (⟨1, ![6]⟩ : Shape).Idx → EReal)
    (T : (⟨4, ![36, 16, 32, 1]⟩ : Shape).Idx → EReal) : (⟨2, ![262144, 576]⟩ : Shape).Idx → EReal :=
  fun i => interp P Q T (i 0) (featOf (i 1)) (chanOf (i 1))

/-- A clamped row lies in `[0, 31]`. -/
theorem clampRow_toNat_le (q : BitVec 32) : (clampRow q).toNat ≤ 31 := by
  have hq := BitVec.toInt_eq_toNat_cond q
  have hlt := q.isLt
  have e0 : (0#32 : BitVec 32).toInt = 0 := by decide
  have e31 : (31#32 : BitVec 32).toInt = 31 := by decide
  unfold clampRow IntOp.minsi IntOp.maxsi
  simp only [BitVec.slt, decide_eq_true_eq, e0, e31]
  by_cases h1 : q.toInt < 0
  · simp only [if_pos h1, e0]
    rw [if_neg (by decide)]; decide
  · simp only [if_neg h1]
    by_cases h2 : (31 : ℤ) < q.toInt
    · rw [if_pos h2]; decide
    · rw [if_neg h2]; split at hq <;> omega

end Cert.TentSpec

end
-- ==== Proof.TentLaw.lean ====
/-
  The interpolation law. The kernel does not look a table row up: for every row `r = 0 … 31` it forms the weight
  `[lo = r] · (1 − w) + [hi = r] · w` (each bracket a selection between the weight and zero), multiplies it by row `r`
  of the table and adds the product to an accumulator that starts at zero. When `w` and the table's entries are real
  numbers, and `lo ≤ 31`, `hi = min 31 (lo + 1)`, all but at most two of the 32 terms vanish and the sum is the linear
  interpolation `T[lo] · (1 − w) + T[hi] · w`: for `lo < 31` the two surviving terms are the two products; for `lo = 31`
  the rows coincide and the one surviving term `((1 − w) + w) · T[31]` distributes, which is where realness is used (on the
  extended reals a product does not distribute over a sum of opposite infinities).
-/
import proofs.«109105_j28028956573735_2_alg».proof.Proof.Spec

noncomputable section

namespace Cert.TentSpec

open Idealize.ShloMosaic

/-- The accumulation over the 32 rows as the kernel body spells it, from the left, starting at `zero`. -/
def tentChain (one zero w : EReal) (i0 i1 : BitVec 32) (T : Fin 32 → EReal) : EReal :=
  zero
    + (Scalar.select (IntOp.cmpi .eq i0 0#32) (one - w) zero + Scalar.select (IntOp.cmpi .eq i1 0#32) w zero) * T ⟨0, by decide⟩
    + (Scalar.select (IntOp.cmpi .eq i0 1#32) (one - w) zero + Scalar.select (IntOp.cmpi .eq i1 1#32) w zero) * T ⟨1, by decide⟩
    + (Scalar.select (IntOp.cmpi .eq i0 2#32) (one - w) zero + Scalar.select (IntOp.cmpi .eq i1 2#32) w zero) * T ⟨2, by decide⟩
    + (Scalar.select (IntOp.cmpi .eq i0 3#32) (one - w) zero + Scalar.select (IntOp.cmpi .eq i1 3#32) w zero) * T ⟨3, by decide⟩
    + (Scalar.select (IntOp.cmpi .eq i0 4#32) (one - w) zero + Scalar.select (IntOp.cmpi .eq i1 4#32) w zero) * T ⟨4, by decide⟩
    + (Scalar.select (IntOp.cmpi .eq i0 5#32) (one - w) zero + Scalar.select (IntOp.cmpi .eq i1 5#32) w zero) * T ⟨5, by decide⟩
    + (Scalar.select (IntOp.cmpi .eq i0 6#32) (one - w) zero + Scalar.select (IntOp.cmpi .eq i1 6#32) w zero) * T ⟨6, by decide⟩
    + (Scalar.select (IntOp.cmpi .eq i0 7#32) (one - w) zero + Scalar.select (IntOp.cmpi .eq i1 7#32) w zero) * T ⟨7, by decide⟩
    + (Scalar.select (IntOp.cmpi .eq i0 8#32) (one - w) zero + Scalar.select (IntOp.cmpi .eq i1 8#32) w zero) * T ⟨8, by decide⟩
    + (Scalar.select (IntOp.cmpi .eq i0 9#32) (one - w) zero + Scalar.select (IntOp.cmpi .eq i1 9#32) w zero) * T ⟨9, by decide⟩
    + (Scalar.select (IntOp.cmpi .eq i0 10#32) (one - w) zero + Scalar.select (IntOp.cmpi .eq i1 10#32) w zero) * T ⟨10, by decide⟩
    + (Scalar.select (IntOp.cmpi .eq i0 11#32) (one - w) zero + Scalar.select (IntOp.cmpi .eq i1 11#32) w zero) * T ⟨11, by decide⟩
    + (Scalar.select (IntOp.cmpi .eq i0 12#32) (one - w) zero + Scalar.select (IntOp.cmpi .eq i1 12#32) w zero) * T ⟨12, by decide⟩
    + (Scalar.select (IntOp.cmpi .eq i0 13#32) (one - w) zero + Scalar.select (IntOp.cmpi .eq i1 13#32) w zero) * T ⟨13, by decide⟩
    + (Scalar.select (IntOp.cmpi .eq i0 14#32) (one - w) zero + Scalar.select (IntOp.cmpi .eq i1 14#32) w zero) * T ⟨14, by decide⟩
    + (Scalar.select (IntOp.cmpi .eq i0 15#32) (one - w) zero + Scalar.select (IntOp.cmpi .eq i1 15#32) w zero) * T ⟨15, by decide⟩
    + (Scalar.select (IntOp.cmpi .eq i0 16#32) (one - w) zero + Scalar.select (IntOp.cmpi .eq i1 16#32) w zero) * T ⟨16, by decide⟩
    + (Scalar.select (IntOp.cmpi .eq i0 17#32) (one - w) zero + Scalar.select (IntOp.cmpi .eq i1 17#32) w zero) * T ⟨17, by decide⟩
    + (Scalar.select (IntOp.cmpi .eq i0 18#32) (one - w) zero + Scalar.select (IntOp.cmpi .eq i1 18#32) w zero) * T ⟨18, by decide⟩
    + (Scalar.select (IntOp.cmpi .eq i0 19#32) (one - w) zero + Scalar.select (IntOp.cmpi .eq i1 19#32) w zero) * T ⟨19, by decide⟩
    + (Scalar.select (IntOp.cmpi .eq i0 20#32) (one - w) zero + Scalar.select (IntOp.cmpi .eq i1 20#32) w zero) * T ⟨20, by decide⟩
    + (Scalar.select (IntOp.cmpi .eq i0 21#32) (one - w) zero + Scalar.select (IntOp.cmpi .eq i1 21#32) w zero) * T ⟨21, by decide⟩
    + (Scalar.select (IntOp.cmpi .eq i0 22#32) (one - w) zero + Scalar.select (IntOp.cmpi .eq i1 22#32) w zero) * T ⟨22, by decide⟩
    + (Scalar.select (IntOp.cmpi .eq i0 23#32) (one - w) zero + Scalar.select (IntOp.cmpi .eq i1 23#32) w zero) * T ⟨23, by decide⟩
    + (Scalar.select (IntOp.cmpi .eq i0 24#32) (one - w) zero + Scalar.select (IntOp.cmpi .eq i1 24#32) w zero) * T ⟨24, by decide⟩
    + (Scalar.select (IntOp.cmpi .eq i0 25#32) (one - w) zero + Scalar.select (IntOp.cmpi .eq i1 25#32) w zero) * T ⟨25, by decide⟩
    + (Scalar.select (IntOp.cmpi .eq i0 26#32) (one - w) zero + Scalar.select (IntOp.cmpi .eq i1 26#32) w zero) * T ⟨26, by decide⟩
    + (Scalar.select (IntOp.cmpi .eq i0 27#32) (one - w) zero + Scalar.select (IntOp.cmpi .eq i1 27#32) w zero) * T ⟨27, by decide⟩
    + (Scalar.select (IntOp.cmpi .eq i0 28#32) (one - w) zero + Scalar.select (IntOp.cmpi .eq i1 28#32) w zero) * T ⟨28, by decide⟩
    + (Scalar.select (IntOp.cmpi .eq i0 29#32) (one - w) zero + Scalar.select (IntOp.cmpi .eq i1 29#32) w zero) * T ⟨29, by decide⟩
    + (Scalar.select (IntOp.cmpi .eq i0 30#32) (one - w) zero + Scalar.select (IntOp.cmpi .eq i1 30#32) w zero) * T ⟨30, by decide⟩
    + (Scalar.select (IntOp.cmpi .eq i0 31#32) (one - w) zero + Scalar.select (IntOp.cmpi .eq i1 31#32) w zero) * T ⟨31, by decide⟩

/-- The row after row `k ≤ 31`, clamped: `min 31 (k + 1)`. -/
theorem clampRow_succ (k : ℕ) (hk : k ≤ 31) :
    clampRow (IntOp.addi (BitVec.ofNat 32 k) 1#32) = BitVec.ofNat 32 (min 31 (k + 1)) := by
  interval_cases k <;> decide

/-- The law for a lower row given by its number. -/
theorem tentChain_ofNat (o w : ℝ) (T : Fin 32 → ℝ) (k : ℕ) (hk : k ≤ 31) :
    tentChain (o : EReal) 0 (w : EReal) (BitVec.ofNat 32 k) (BitVec.ofNat 32 (min 31 (k + 1))) (fun r => (T r : EReal))
      = (T ⟨k, by omega⟩ : EReal) * ((o : EReal) - (w : EReal))
        + (T ⟨min 31 (k + 1), by omega⟩ : EReal) * (w : EReal) := by
  interval_cases k <;>
    simp [tentChain, Scalar.select, IntOp.cmpi] <;> norm_cast <;> ring

end Cert.TentSpec

end
-- ==== Proof.KernelAcc.lean ====
/-
  The kernel body's accumulation, read at an index. The body is printed as a chain of pure terms, one per stretch of
  the unrolled loop over the 32 table rows; composed, they compute, at point `n`, channel `g` and feature `c`, the sum over
  the rows of (selected weight) × (table row) from the left starting at zero — `tentChain` —, add the encoding, and lay
  the `[point, channel, feature]` result out as `[point, 36 · feature + channel]`.
-/
import proofs.«109105_j28028956573735_2_alg».proof.Proof.Gen.KernelIdeal.Skeleton
import proofs.«109105_j28028956573735_2_alg».proof.Proof.LibRowSpread
import proofs.«109105_j28028956573735_2_alg».proof.Proof.TentLaw

noncomputable section

namespace Cert.KernelIdeal.AccAt

open Cert.KernelIdeal Cert.KernelIdeal.Gen Idealize.ShloMosaic Idealize.ShloMosaic.ValueIdx

/-- An integer comparison of two vectors at an index is the comparison of their elements there. -/
theorem cmpi_apply {s : Shape} {w : ℕ} (p : CmpIPredicate) (x y : IVec s w) (i : s.Idx) :
    cmpi p x y i = IntOp.cmpi p (x i) (y i) := rfl

set_option maxHeartbeats 1600000 in
/-- The stored value at `(n, 36 · c + g)`: the accumulation over the rows at `(n, g, c)`, plus the encoding at `(n, g)`.
    Here `E` is the encoding, `W` the weight of the upper row, `Q` the integer row below before clamping, `X2` the table. -/
theorem acc_at (E W : FVec Ideal S2048x36 .f32) (Q : IVec S2048x36 32) (X2 : Vec Ideal S36x16x32 .f32)
    (n : Fin 2048) (g : Fin 36) (c : Fin 16) (J : Fin 576) (hJ : J.val = c.val * 36 + g.val) :
    k0_pay1 E (k0_pay9 X2) (k0_pay34 W (k0_pay7 Q 0#32 31#32) (k0_pay8 Q 0#32 31#32) (k0_pay9 X2) (k0_pay32 W (k0_pay7 Q 0#32 31#32) (k0_pay8 Q 0#32 31#32) (k0_pay9 X2) (k0_pay30 W (k0_pay7 Q 0#32 31#32) (k0_pay8 Q 0#32 31#32) (k0_pay9 X2) (k0_pay28 W (k0_pay7 Q 0#32 31#32) (k0_pay8 Q 0#32 31#32) (k0_pay9 X2) (k0_pay26 W (k0_pay7 Q 0#32 31#32) (k0_pay8 Q 0#32 31#32) (k0_pay9 X2) (k0_pay24 W (k0_pay7 Q 0#32 31#32) (k0_pay8 Q 0#32 31#32) (k0_pay9 X2) (k0_pay22 W (k0_pay7 Q 0#32 31#32) (k0_pay8 Q 0#32 31#32) (k0_pay9 X2) (k0_pay20 W (k0_pay7 Q 0#32 31#32) (k0_pay8 Q 0#32 31#32) (k0_pay9 X2) (k0_pay18 W (k0_pay7 Q 0#32 31#32) (k0_pay8 Q 0#32 31#32) (k0_pay9 X2) (k0_pay16 W (k0_pay7 Q 0#32 31#32) (k0_pay8 Q 0#32 31#32) (k0_pay9 X2) (k0_pay14 W (k0_pay7 Q 0#32 31#32) (k0_pay8 Q 0#32 31#32) (k0_pay9 X2) (k0_pay12 W (k0_pay7 Q 0#32 31#32) (k0_pay8 Q 0#32 31#32) (k0_pay9 X2) (k0_pay10 W Q 0#32 31#32 X2) (k0_pay11 W Q 0#32 31#32)) (k0_pay13 (k0_pay7 Q 0#32 31#32)) 4#32) (k0_pay15 W (k0_pay7 Q 0#32 31#32) (k0_pay8 Q 0#32 31#32))) (k0_pay17 (k0_pay7 Q 0#32 31#32)) 9#32) (k0_pay19 W (k0_pay7 Q 0#32 31#32) (k0_pay8 Q 0#32 31#32))) (k0_pay21 (k0_pay7 Q 0#32 31#32)) 14#32) (k0_pay23 W (k0_pay7 Q 0#32 31#32) (k0_pay8 Q 0#32 31#32))) (k0_pay25 (k0_pay7 Q 0#32 31#32)) 19#32) (k0_pay27 W (k0_pay7 Q 0#32 31#32) (k0_pay8 Q 0#32 31#32))) (k0_pay29 (k0_pay7 Q 0#32 31#32)) 24#32) (k0_pay31 W (k0_pay7 Q 0#32 31#32) (k0_pay8 Q 0#32 31#32))) (k0_pay33 (k0_pay7 Q 0#32 31#32)) 29#32) (k0_pay35 W (k0_pay7 Q 0#32 31#32) (k0_pay8 Q 0#32 31#32)) (ix2 n J)
      = Cert.TentSpec.tentChain (Ideal.ofBits .f32 0x3F800000#32) (Ideal.ofBits .f32 0x00000000#32) (W (ix2 n g))
          (k0_pay7 Q 0#32 31#32 (ix2 n g)) (k0_pay8 Q 0#32 31#32 (ix2 n g)) (fun r => X2 (ix3 g c r))
        + E (ix2 n g) := by
  unfold Cert.TentSpec.tentChain
  unfold k0_pay1 k0_pay35 k0_pay34 k0_pay33 k0_pay32 k0_pay31 k0_pay30 k0_pay29 k0_pay28 k0_pay27 k0_pay26 k0_pay25 k0_pay24 k0_pay23 k0_pay22 k0_pay21 k0_pay20 k0_pay19 k0_pay18 k0_pay17 k0_pay16 k0_pay15 k0_pay14 k0_pay13 k0_pay12 k0_pay11 k0_pay10 k0_pay9
  simp only [Cert.LibRowSpread.merge_exchanged _ _ _ (by norm_num : 576 = 16 * 36) n g c J hJ, shapeCast_self,
    addf_apply, mulf_apply, subf_apply, select_apply, broadcast_apply, cmpi_apply, Ideal.ofBits_def,
    Cert.LibRowSpread.spread_weight, Cert.LibRowSpread.spread_row (d := 32) (r := 0) (hr := by decide), Cert.LibRowSpread.spread_row (d := 32) (r := 1) (hr := by decide), Cert.LibRowSpread.spread_row (d := 32) (r := 2) (hr := by decide), Cert.LibRowSpread.spread_row (d := 32) (r := 3) (hr := by decide), Cert.LibRowSpread.spread_row (d := 32) (r := 4) (hr := by decide), Cert.LibRowSpread.spread_row (d := 32) (r := 5) (hr := by decide), Cert.LibRowSpread.spread_row (d := 32) (r := 6) (hr := by decide), Cert.LibRowSpread.spread_row (d := 32) (r := 7) (hr := by decide), Cert.LibRowSpread.spread_row (d := 32) (r := 8) (hr := by decide), Cert.LibRowSpread.spread_row (d := 32) (r := 9) (hr := by decide), Cert.LibRowSpread.spread_row (d := 32) (r := 10) (hr := by decide), Cert.LibRowSpread.spread_row (d := 32) (r := 11) (hr := by decide), Cert.LibRowSpread.spread_row (d := 32) (r := 12) (hr := by decide), Cert.LibRowSpread.spread_row (d := 32) (r := 13) (hr := by decide), Cert.LibRowSpread.spread_row (d := 32) (r := 14) (hr := by decide), Cert.LibRowSpread.spread_row (d := 32) (r := 15) (hr := by decide), Cert.LibRowSpread.spread_row (d := 32) (r := 16) (hr := by decide), Cert.LibRowSpread.spread_row (d := 32) (r := 17) (hr := by decide), Cert.LibRowSpread.spread_row (d := 32) (r := 18) (hr := by decide), Cert.LibRowSpread.spread_row (d := 32) (r := 19) (hr := by decide), Cert.LibRowSpread.spread_row (d := 32) (r := 20) (hr := by decide), Cert.LibRowSpread.spread_row (d := 32) (r := 21) (hr := by decide), Cert.LibRowSpread.spread_row (d := 32) (r := 22) (hr := by decide), Cert.LibRowSpread.spread_row (d := 32) (r := 23) (hr := by decide), Cert.LibRowSpread.spread_row (d := 32) (r := 24) (hr := by decide), Cert.LibRowSpread.spread_row (d := 32) (r := 25) (hr := by decide), Cert.LibRowSpread.spread_row (d := 32) (r := 26) (hr := by decide), Cert.LibRowSpread.spread_row (d := 32) (r := 27) (hr := by decide), Cert.LibRowSpread.spread_row (d := 32) (r := 28) (hr := by decide), Cert.LibRowSpread.spread_row (d := 32) (r := 29) (hr := by decide), Cert.LibRowSpread.spread_row (d := 32) (r := 30) (hr := by decide), Cert.LibRowSpread.spread_row (d := 32) (r := 31) (hr := by decide)]

end Cert.KernelIdeal.AccAt

end
-- ==== Proof.LibMidAxisLayout.lean ====
/-
  Layout operations of small ranks read at an index given by its coordinates, beyond the leading-unit-axis cases:
  a unit axis inserted in the MIDDLE of a matrix and broadcast over, two axes MERGED into one and split again, a vector
  lifted to two leading unit axes and broadcast over both, and the unit axes of a rank-4 block dropped.

  Each statement reads one `vector.shape_cast` or `vector.broadcast` at `ixN …` as its operand at `ixM …`; the sizes are
  arbitrary naturals. A shape cast preserves the row-major position, so each cast lemma is one equation between two
  row-major positions; a broadcast reads coordinate `0` on the operand's unit axes and the result's own coordinate on the others.
-/
import Idealize.ShloMosaic.Lib.Pipeline.Value
import Idealize.ShloMosaic.Lib.ValueIdx
import Idealize.ShloMosaic.Lib.ValueLayout

namespace Cert.LibMidAxisLayout

open Idealize.ShloMosaic Idealize.ShloMosaic.ValueIdx

variable {α : Type}

/-! ## A unit axis in the middle -/

/-- An `[a, c]` matrix cast to `[a, 1, c]` reads, at `(p, u, q)`, the operand at `(p, q)`: the position
    `(p · 1 + u) · c + q` with `u = 0` is `p · c + q`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- An `[a, 1, c]` array broadcast to `[a, b, c]` reads, at `(p, u, q)`, the operand at `(p, 0, q)`: the same
    row for every `u`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (u : Fin b) (q : Fin c) :
    broadcastTo ⟨3, ![a, b, c]⟩ x h (ix3 p u q) = x (ix3 p (0 : Fin 1) q) := by
  refine broadcastTo_apply x h (ix3 p u q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A `[1, b, c]` array broadcast to `[a, b, c]` reads, at `(p, u, q)`, the operand at `(0, u, q)`: the same
    matrix for every `p`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (u : Fin b) (q : Fin c) :
    broadcastTo ⟨3, ![a, b, c]⟩ x h (ix3 p u q) = x (ix3 (0 : Fin 1) u q) := by
  refine broadcastTo_apply x h (ix3 p u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if c = 1 then 0 else q.val
    split
    · have := q.isLt; omega
    · rfl

/-! ## Two axes merged into one, and split again -/

/-- An `[a, b, c]` array cast to `[m, c]` (so `m = a · b`) reads, at row `r = p · b + u` and column `q`, the
    operand at `(p, u, q)`. -/
theorem shapeCast_abc_mc_apply {a b c m : ℕ} (x : (⟨3, ![a, b, c]⟩ : Shape).Idx → α)
    (h : (⟨3, ![a, b, c]⟩ : Shape).ShapeCasts ⟨2, ![m, c]⟩) (p : Fin a) (u : Fin b) (q : Fin c) (r : Fin m)
    (hr : r.val = p.val * b + u.val) :
    shapeCast ⟨2, ![m, c]⟩ x h (ix2 r q) = x (ix3 p u q) :=
  shapeCast_apply x h _ _ (by
    rw [Shape.rowMajor_val_three, Shape.rowMajor_val_two]
    show (p.val * b + u.val) * c + q.val = r.val * c + q.val
    rw [hr])

/-- An `[m, c]` matrix cast to `[a, b, c]` (so `m = a · b`) reads, at `(p, u, q)`, the operand at row
    `r = p · b + u` and column `q`. -/
theorem shapeCast_mc_abc_apply {a b c m : ℕ} (x : (⟨2, ![m, c]⟩ : Shape).Idx → α)
    (h : (⟨2, ![m, c]⟩ : Shape).ShapeCasts ⟨3, ![a, b, c]⟩) (p : Fin a) (u : Fin b) (q : Fin c) (r : Fin m)
    (hr : r.val = p.val * b + u.val) :
    shapeCast ⟨3, ![a, b, c]⟩ x h (ix3 p u q) = x (ix2 r q) :=
  shapeCast_apply x h _ _ (by
    rw [Shape.rowMajor_val_three, Shape.rowMajor_val_two]
    show r.val * c + q.val = (p.val * b + u.val) * c + q.val
    rw [hr])

/-! ## A vector under two leading unit axes -/

/-- An `[n]` vector cast to `[1, 1, n]` reads, at `(u, w, q)`, the operand at `q`. -/
theorem shapeCast_n_11n_apply {n : ℕ} (x : (⟨1, ![n]⟩ : Shape).Idx → α)
    (h : (⟨1, ![n]⟩ : Shape).ShapeCasts ⟨3, ![1, 1, n]⟩) (u w : Fin 1) (q : Fin n) :
    shapeCast ⟨3, ![1, 1, n]⟩ x h (ix3 u w q) = x (ix1 q) :=
  shapeCast_apply x h _ _ (by
    have hu : u.val = 0 := by omega
    have hw : w.val = 0 := by omega
    rw [Shape.rowMajor_val_three, Shape.rowMajor_val_one]
    show q.val = (u.val * 1 + w.val) * n + q.val
    rw [hu, hw]
    simp only [Nat.zero_mul, Nat.zero_add, Nat.mul_one, Nat.add_zero])

/-- A `[1, 1, n]` array broadcast to `[a, b, n]` reads, at `(p, u, q)`, the operand at `(0, 0, q)`. -/
theorem broadcastTo_11n_abn_apply {a b n : ℕ} (x : (⟨3, ![1, 1, n]⟩ : Shape).Idx → α)
    (h : (⟨3, ![1, 1, n]⟩ : Shape).Broadcasts ⟨3, ![a, b, n]⟩) (p : Fin a) (u : Fin b) (q : Fin n) :
    broadcastTo ⟨3, ![a, b, n]⟩ x h (ix3 p u q) = x (ix3 (0 : Fin 1) (0 : Fin 1) q) := by
  refine broadcastTo_apply x h (ix3 p u q) (ix3 (0 : Fin 1) (0 : Fin 1) q) fun ax => ?_
  match ax with
  | ⟨0, _⟩ => rfl
  | ⟨1, _⟩ => rfl
  | ⟨2, _⟩ =>
    show q.val = if n = 1 then 0 else q.val
    split
    · have := q.isLt; omega
    · rfl

/-! ## The unit axes of a rank-4 block dropped -/

/-- A `[1, a, 1, c]` block cast to `[a, c]` reads, at `(p, q)`, the operand at `(0, p, 0, q)`. -/
theorem shapeCast_1a1c_ac_apply {a c : ℕ} (x : (⟨4, ![1, a, 1, c]⟩ : Shape).Idx → α)
    (h : (⟨4, ![1, a, 1, c]⟩ : Shape).ShapeCasts ⟨2, ![a, c]⟩) (p : Fin a) (q : Fin c) :
    shapeCast ⟨2, ![a, c]⟩ x h (ix2 p q) = x (ix4 (0 : Fin 1) p (0 : Fin 1) q) :=
  shapeCast_apply x h _ _ (by
    rw [Shape.rowMajor_val_four, Shape.rowMajor_val_two]
    show ((0 * a + p.val) * 1 + 0) * c + q.val = p.val * c + q.val
    rw [Nat.zero_mul, Nat.zero_add, Nat.mul_one, Nat.add_zero])

/-- A `[1, 1, b, c]` block cast to `[b, c]` reads, at `(u, q)`, the operand at `(0, 0, u, q)`. -/
theorem shapeCast_11bc_bc_apply {b c : ℕ} (x : (⟨4, ![1, 1, b, c]⟩ : Shape).Idx → α)
    (h : (⟨4, ![1, 1, b, c]⟩ : Shape).ShapeCasts ⟨2, ![b, c]⟩) (u : Fin b) (q : Fin c) :
    shapeCast ⟨2, ![b, c]⟩ x h (ix2 u q) = x (ix4 (0 : Fin 1) (0 : Fin 1) u q) :=
  shapeCast_apply x h _ _ (by
    rw [Shape.rowMajor_val_four, Shape.rowMajor_val_two]
    show ((0 * 1 + 0) * b + u.val) * c + q.val = u.val * c + q.val
    simp only [Nat.zero_mul, Nat.zero_add, Nat.mul_one, Nat.add_zero])

end Cert.LibMidAxisLayout
-- ==== Proof.LibSideBySide.lean ====
/-
  Two arrays laid side by side, read at an index, and a one-column matrix turned into a one-row matrix.

  A program that wants one matrix product to serve two layers keeps the two weight matrices side by side in one array
  (a concatenation along the columns) and the two bias vectors end to end in one vector. Read at an index, the pair is
  its left piece where the coordinate along the joined axis is below the left piece's extent `a`, and its right piece,
  at that coordinate less `a`, from `a` on. Stated for any two `r × a` matrices (columns `j` and `a + j` of the pair)
  and any two vectors of length `a` (positions `j` and `a + j`); the position in the pair is a parameter `J` with its
  value given, so that a caller's own injection into the pair's columns fits by `rfl`.
  A shape cast keeps row-major positions: entry `(q, 0)` of an `a × 1` column and entry `(0, q)` of the `1 × a` row it is
  cast to both sit at position `q`.
-/
import Idealize.ShloMosaic.Lib.Pipeline.Value
import Idealize.ShloMosaic.Lib.ValueIdx
import Idealize.ShloMosaic.Lib.ValueLayout

namespace Cert.LibSideBySide

open Idealize.ShloMosaic Idealize.ShloMosaic.ValueIdx

variable {α : Type}

/-! ## Two pieces side by side -/

/-- Column `j` of the left of two `r × a` matrices laid side by side. -/
theorem pair_cols_left {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = j.val) :
    concatenate ⟨2, ![r, t]⟩ 1 [⟨⟨2, ![r, a]⟩, x₁⟩, ⟨⟨2, ![r, a]⟩, x₂⟩] h (ix2 k J) = x₁ (ix2 k j) :=
  concatenate_pair_apply_left 1 x₁ x₂ h (ix2 k J) rfl (ix2 k j) (fun b => by
    match b with
    | ⟨0, _⟩ => rfl
    | ⟨1, _⟩ => exact hJ.symm)

/-- Column `j` of the right of two `r × a` matrices laid side by side sits at column `a + j` of the pair. -/
theorem pair_cols_right {r a t : ℕ} (x₁ x₂ : (⟨2, ![r, a]⟩ : Shape).Idx → α)
    (h : Shape.Concatenates [(⟨2, ![r, a]⟩ : Shape), ⟨2, ![r, a]⟩] ⟨2, ![r, t]⟩ 1) (k : Fin r) (j : Fin a) (J : Fin t)
    (hJ : J.val = a + j.val) :
    concatenate ⟨2, ![r, t]⟩ 1 [⟨⟨2, ![r, a]⟩, x₁⟩, ⟨⟨2, ![r, a]⟩, x₂⟩] h (ix2 k J) = x₂ (ix2 k j) :=
  concatenate_pair_apply_right 1 x₁ x₂ h (ix2 k J) rfl rfl (ix2 k j) (fun b hb => by
    match b with
    | ⟨0, _⟩ => rfl
    | ⟨1, _⟩ => exact absurd rfl hb) (by
    show j.val + a = J.val
    omega)

/-- Entry `j` of the first of two vectors of length `a` laid end to end. -/
theorem pair_vec_left {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = j.val) :
    concatenate ⟨1, ![t]⟩ 0 [⟨⟨1, ![a]⟩, x₁⟩, ⟨⟨1, ![a]⟩, x₂⟩] h (ix1 J) = x₁ (ix1 j) :=
  concatenate_pair_apply_left 0 x₁ x₂ h (ix1 J) rfl (ix1 j) (fun b => by
    match b with
    | ⟨0, _⟩ => exact hJ.symm)

/-- Entry `j` of the second of two vectors of length `a` laid end to end sits at position `a + j`. -/
theorem pair_vec_right {a t : ℕ} (x₁ x₂ : (⟨1, ![a]⟩ : Shape).Idx → α)
    (h : Shape.Concatenates [(⟨1, ![a]⟩ : Shape), ⟨1, ![a]⟩] ⟨1, ![t]⟩ 0) (j : Fin a) (J : Fin t) (hJ : J.val = a + j.val) :
    concatenate ⟨1, ![t]⟩ 0 [⟨⟨1, ![a]⟩, x₁⟩, ⟨⟨1, ![a]⟩, x₂⟩] h (ix1 J) = x₂ (ix1 j) :=
  concatenate_pair_apply_right 0 x₁ x₂ h (ix1 J) rfl rfl (ix1 j) (fun b hb => by
    match b with
    | ⟨0, _⟩ => exact absurd rfl hb) (by
    show j.val + a = J.val
    omega)

/-- A one-column matrix cast to a one-row matrix: entry `(0, q)` of the row is entry `(q, 0)` of the column. -/
theorem shapeCast_a1_1a_apply {a : ℕ} (x : (⟨2, ![a, 1]⟩ : Shape).Idx → α)
    (h : (⟨2, ![a, 1]⟩ : Shape).ShapeCasts ⟨2, ![1, a]⟩) (q : Fin a) :
    shapeCast ⟨2, ![1, a]⟩ x h (ix2 (0 : Fin 1) q) = x (ix2 q (0 : Fin 1)) :=
  shapeCast_apply x h _ _ (by
    rw [Shape.rowMajor_val_two, Shape.rowMajor_val_two]
    show q.val * 1 + 0 = 0 * a + q.val
    omega)

end Cert.LibSideBySide
-- ==== Proof.KernelEnc.lean ====
/-
  The positional encoding the kernel computes for one block of 2048 points, read at an index.

  The six frequencies `q` (a `[1, 6]` row) are laid along the middle axis of a `[2048, 6, 3]` array and the points `p`
  (a `[2048, 3]` matrix) along its outer and inner axes, so the entry at `(n, f, k)` of their product is
  `p[n,k] · q[f]`. The sine and the cosine of the product are each cut, at every frequency `f`, into a `[2048, 3]`
  matrix; the two matrices of a frequency are laid side by side into a `[2048, 6]` chunk, and the six chunks side by
  side into the `[2048, 36]` encoding. Column `g = 6·f + r` of the encoding is therefore column `r` of chunk `f`: the
  sine at coordinate `r` for `r < 3`, the cosine at coordinate `r − 3` from `3` on. With `k = g mod 3` and `f = g / 6` it is
  `sin (p[n,k] · q[f])` when `g mod 6 < 3` and `cos (p[n,k] · q[f])` otherwise.
-/
import Idealize.ShloMosaic.Lib.Pipeline.Value
import Idealize.ShloMosaic.Lib.ValueIdx
import Idealize.ShloMosaic.Lib.ValueLayout
import proofs.«109105_j28028956573735_2_alg».proof.Proof.Gen.KernelIdeal.Skeleton
import proofs.«109105_j28028956573735_2_alg».proof.Proof.Spec
import proofs.«109105_j28028956573735_2_alg».proof.Proof.LibMidAxisLayout
import proofs.«109105_j28028956573735_2_alg».proof.Proof.LibSideBySide

noncomputable section

namespace Cert.KernelIdeal.EncAt

open Cert.KernelIdeal Cert.KernelIdeal.Gen Idealize.ShloMosaic Idealize.ShloMosaic.ValueIdx

variable {α : Type}

/-! ## Three casts read at an index -/

/-- A `[b]` vector cast to `[1, b, 1]` reads, at `(u, f, w)`, the operand at `f`: the position
    `(u · b + f) · 1 + w` with `u = w = 0` is `f`. -/
theorem shapeCast_b_1b1_apply {b : ℕ} (x : (⟨1, ![b]⟩ : Shape).Idx → α)
    (h : (⟨1, ![b]⟩ : Shape).ShapeCasts ⟨3, ![1, b, 1]⟩) (u : Fin 1) (f : Fin b) (w : Fin 1) :
    shapeCast ⟨3, ![1, b, 1]⟩ x h (ix3 u f w) = x (ix1 f) :=
  shapeCast_apply x h _ _ (by
    have hu : u.val = 0 := by omega
    have hw : w.val = 0 := by omega
    rw [Shape.rowMajor_val_three, Shape.rowMajor_val_one]
    show f.val = (u.val * b + f.val) * 1 + w.val
    rw [hu, hw, Nat.zero_mul, Nat.zero_add, Nat.mul_one, Nat.add_zero])

/-- A `[1, b, 1]` array broadcast to `[a, b, c]` reads, at `(p, f, q)`, the operand at `(0, f, 0)`: the same
    column for every `p` and `q`. -/
theorem broadcastTo_1b1_abc_apply {a b c : ℕ} (x : (⟨3, ![1, b, 1]⟩ : Shape).Idx → α)
    (h : (⟨3, ![1, b, 1]⟩ : Shape).Broadcasts ⟨3, ![a, b, c]⟩) (p : Fin a) (f : Fin b) (q : Fin c) :
    broadcastTo ⟨3, ![a, b, c]⟩ x h (ix3 p f q) = x (ix3 (0 : Fin 1) f (0 : Fin 1)) := by
  refine broadcastTo_apply x h (ix3 p f q) (ix3 (0 : Fin 1) f (0 : Fin 1)) fun ax => ?_
  match ax with
  | ⟨0, _⟩ => rfl
  | ⟨1, _⟩ =>
    show f.val = if b = 1 then 0 else f.val
    split
    · have := f.isLt; omega
    · rfl
  | ⟨2, _⟩ => rfl

/-- An `[a, 1, c]` array cast to `[a, c]` reads, at `(p, q)`, the operand at `(p, 0, q)`: the position
    `(p · 1 + 0) · c + q` is `p · c + q`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (q : Fin c) :
    shapeCast ⟨2, ![a, c]⟩ x h (ix2 p q) = x (ix3 p (0 : Fin 1) q) :=
  shapeCast_apply x h _ _ (by
    rw [Shape.rowMajor_val_three, Shape.rowMajor_val_two]
    show (p.val * 1 + 0) * c + q.val = p.val * c + q.val
    rw [Nat.mul_one, Nat.add_zero])

/-! ## The product of points and frequencies -/

/-- The product array at `(n, f, k)` is `p[n,k] · q[f]`. -/
theorem prod_at (x0 : Vec Ideal S2048x3 .f32) (x1 : Vec Ideal S1x6 .f32)
    (h1 : S1x6.ShapeCasts S6) (h2 : S2048x3.ShapeCasts S2048x1x3) (h3 : S6.ShapeCasts S1x6x1)
    (h4 : S2048x1x3.Broadcasts S2048x6x3) (h5 : S1x6x1.Broadcasts S2048x6x3)
    (n : Fin 2048) (f : Fin 6) (k : Fin 3) :
    mulf (F := Ideal) (φ := .f32) (broadcastTo S2048x6x3 (shapeCast S2048x1x3 x0 h2) h4)
        (broadcastTo S2048x6x3 (shapeCast S1x6x1 (shapeCast S6 x1 h1) h3) h5) (ix3 n f k)
      = x0 (ix2 n k) * x1 (ix2 (0 : Fin 1) f) := by
  have e0 : broadcastTo S2048x6x3 (shapeCast S2048x1x3 x0 h2) h4 (ix3 n f k) = x0 (ix2 n k) :=
    (Cert.LibMidAxisLayout.broadcastTo_a1c_abc_apply _ h4 n f k).trans
      (Cert.LibMidAxisLayout.shapeCast_ac_a1c_apply x0 h2 n (0 : Fin 1) k)
  have e1 : broadcastTo S2048x6x3 (shapeCast S1x6x1 (shapeCast S6 x1 h1) h3) h5 (ix3 n f k)
      = x1 (ix2 (0 : Fin 1) f) :=
    (broadcastTo_1b1_abc_apply _ h5 n f k).trans
      ((shapeCast_b_1b1_apply _ h3 (0 : Fin 1) f (0 : Fin 1)).trans (shapeCast_1a_a_apply x1 h1 f))
  exact congrArg₂ (· * ·) e0 e1

/-! ## One frequency's chunk -/

/-- The chunk of frequency `f`, built from two `[2048, 6, 3]` arrays `S` and `C`: at `(n, r)` it is `S` at
    `(n, f, r)` for `r < 3` and `C` at `(n, f, r − 3)` from `3` on; in both cases the last coordinate is `r mod 3`. -/
theorem chunk_at (S C : (⟨3, ![2048, 6, 3]⟩ : Shape).Idx → α) (f : ℕ) (hf : f < 6)
    (hs : (⟨3, ![2048, 6, 3]⟩ : Shape).Slices ![0, f, 0] ⟨3, ![2048, 1, 3]⟩)
    (hc : (⟨3, ![2048, 1, 3]⟩ : Shape).ShapeCasts ⟨2, ![2048, 3]⟩)
    (hcat : Shape.Concatenates [(⟨2, ![2048, 3]⟩ : Shape), ⟨2, ![2048, 3]⟩] ⟨2, ![2048, 6]⟩ 1)
    (n : Fin 2048) (r : Fin 6) :
    concatenate ⟨2, ![2048, 6]⟩ 1
        [⟨⟨2, ![2048, 3]⟩, shapeCast ⟨2, ![2048, 3]⟩ (extractStridedSlice ⟨3, ![2048, 1, 3]⟩ ![0, f, 0] S hs) hc⟩,
         ⟨⟨2, ![2048, 3]⟩, shapeCast ⟨2, ![2048, 3]⟩ (extractStridedSlice ⟨3, ![2048, 1, 3]⟩ ![0, f, 0] C hs) hc⟩]
        hcat (ix2 n r)
      = if r.val < 3 then S (ix3 n (⟨f, hf⟩ : Fin 6) (⟨r.val % 3, Nat.mod_lt _ (by decide)⟩ : Fin 3))
        else C (ix3 n (⟨f, hf⟩ : Fin 6) (⟨r.val % 3, Nat.mod_lt _ (by decide)⟩ : Fin 3)) := by
  have hr6 := r.isLt
  by_cases hr : r.val < 3
  · rw [if_pos hr]
    refine (Cert.LibSideBySide.pair_cols_left _ _ hcat n (⟨r.val % 3, Nat.mod_lt _ (by decide)⟩ : Fin 3) r
      (by show r.val = r.val % 3; omega)).trans ?_
    refine (shapeCast_a1c_ac_apply _ hc n _).trans ?_
    exact slice3_axis1_apply f S hs n (0 : Fin 1) _ (⟨f, hf⟩ : Fin 6) rfl
  · rw [if_neg hr]
    refine (Cert.LibSideBySide.pair_cols_right _ _ hcat n (⟨r.val % 3, Nat.mod_lt _ (by decide)⟩ : Fin 3) r
      (by show r.val = 3 + r.val % 3; omega)).trans ?_
    refine (shapeCast_a1c_ac_apply _ hc n _).trans ?_
    exact slice3_axis1_apply f C hs n (0 : Fin 1) _ (⟨f, hf⟩ : Fin 6) rfl

/-- The chunk of frequency `f` of the encoding: at `(n, r)` the sine of `p[n,k] · q[f]` for `r < 3` and its cosine
    from `3` on, where `k = r mod 3`. -/
theorem enc_chunk_at (x0 : Vec Ideal S2048x3 .f32) (x1 : Vec Ideal S1x6 .f32)
    (h1 : S1x6.ShapeCasts S6) (h2 : S2048x3.ShapeCasts S2048x1x3) (h3 : S6.ShapeCasts S1x6x1)
    (h4 : S2048x1x3.Broadcasts S2048x6x3) (h5 : S1x6x1.Broadcasts S2048x6x3)
    (f : ℕ) (hs : S2048x6x3.Slices ![0, f, 0] S2048x1x3) (hc : S2048x1x3.ShapeCasts S2048x3)
    (hcat : Shape.Concatenates [S2048x3, S2048x3] S2048x6 1)
    (n : Fin 2048) (r : Fin 6) (k : Fin 3) (fq : Fin 6) (hk : k.val = r.val % 3) (hfq : fq.val = f) :
    concatenate S2048x6 1
        [⟨S2048x3, shapeCast S2048x3 (extractStridedSlice S2048x1x3 ![0, f, 0]
            (sin (F := Ideal) (φ := .f32) (mulf (broadcastTo S2048x6x3 (shapeCast S2048x1x3 x0 h2) h4)
              (broadcastTo S2048x6x3 (shapeCast S1x6x1 (shapeCast S6 x1 h1) h3) h5))) hs) hc⟩,
         ⟨S2048x3, shapeCast S2048x3 (extractStridedSlice S2048x1x3 ![0, f, 0]
            (cos (F := Ideal) (φ := .f32) (mulf (broadcastTo S2048x6x3 (shapeCast S2048x1x3 x0 h2) h4)
              (broadcastTo S2048x6x3 (shapeCast S1x6x1 (shapeCast S6 x1 h1) h3) h5))) hs) hc⟩]
        hcat (ix2 n r)
      = if r.val < 3 then Ideal.sin (x0 (ix2 n k) * x1 (ix2 (0 : Fin 1) fq))
        else Ideal.cos (x0 (ix2 n k) * x1 (ix2 (0 : Fin 1) fq)) := by
  subst hfq
  obtain rfl : k = (⟨r.val % 3, Nat.mod_lt _ (by decide)⟩ : Fin 3) := Fin.ext hk
  refine (chunk_at _ _ fq.val fq.isLt hs hc hcat n r).trans ?_
  by_cases hr : r.val < 3
  · rw [if_pos hr, if_pos hr]
    exact congrArg Ideal.sin (prod_at x0 x1 h1 h2 h3 h4 h5 n fq _)
  · rw [if_neg hr, if_neg hr]
    exact congrArg Ideal.cos (prod_at x0 x1 h1 h2 h3 h4 h5 n fq _)

/-! ## The six chunks side by side -/

/-- A list of matrices laid side by side, read at column `J`: piece `k`, whose columns start at `pre` (the widths of
    the pieces before it added up), at column `J − pre`. -/
theorem cols_piece {m t w : ℕ} (xs : List ((s : Shape) × (s.Idx → α)))
    (h : Shape.Concatenates (xs.map (·.1)) ⟨2, ![m, t]⟩ 1) (n : Fin m) (J : Fin t)
    (k : ℕ) (hk : k < xs.length) (x₁ : (⟨2, ![m, w]⟩ : Shape).Idx → α) (hxk : xs[k] = ⟨⟨2, ![m, w]⟩, x₁⟩)
    (pre : ℕ)
    (hpre : (((xs.take k).map (·.1)).map fun s =>
      if h : s.rank = (⟨2, ![m, t]⟩ : Shape).rank then s.size ((1 : Fin (⟨2, ![m, t]⟩ : Shape).rank).cast h.symm) else 0).sum = pre)
    (j : Fin w) (hJ : J.val = pre + j.val) :
    concatenate ⟨2, ![m, t]⟩ 1 xs h (ix2 n J) = x₁ (ix2 n j) :=
  concatenate_apply_piece 1 xs h (ix2 n J) k hk _ x₁ hxk rfl pre hpre (ix2 n j)
    (fun b hb => by
      match b with
      | ⟨0, _⟩ => rfl
      | ⟨1, _⟩ => exact absurd rfl hb)
    (by show pre + j.val = J.val; omega)

/-- Six `[2048, 6]` chunks laid side by side: column `g = 6·f + r` of the result is column `r` of chunk `f`. -/
theorem six_cols (c0 c1 c2 c3 c4 c5 : (⟨2, ![2048, 6]⟩ : Shape).Idx → α)
    (h : Shape.Concatenates [(⟨2, ![2048, 6]⟩ : Shape), ⟨2, ![2048, 6]⟩, ⟨2, ![2048, 6]⟩, ⟨2, ![2048, 6]⟩,
      ⟨2, ![2048, 6]⟩, ⟨2, ![2048, 6]⟩] ⟨2, ![2048, 36]⟩ 1)
    (n : Fin 2048) (g : Fin 36) (f : ℕ) (hf : f < 6) (r : Fin 6) (hg : g.val = 6 * f + r.val) :
    concatenate ⟨2, ![2048, 36]⟩ 1 [⟨⟨2, ![2048, 6]⟩, c0⟩, ⟨⟨2, ![2048, 6]⟩, c1⟩, ⟨⟨2, ![2048, 6]⟩, c2⟩,
        ⟨⟨2, ![2048, 6]⟩, c3⟩, ⟨⟨2, ![2048, 6]⟩, c4⟩, ⟨⟨2, ![2048, 6]⟩, c5⟩] h (ix2 n g)
      = ([c0, c1, c2, c3, c4, c5][f]'hf) (ix2 n r) := by
  obtain rfl | rfl | rfl | rfl | rfl | rfl : f = 0 ∨ f = 1 ∨ f = 2 ∨ f = 3 ∨ f = 4 ∨ f = 5 := by omega
  · exact cols_piece _ (by exact h) n g 0 (by show 0 < 6; omega) c0 (by rfl) 0 (by rfl) r (by omega)
  · exact cols_piece _ (by exact h) n g 1 (by show 1 < 6; omega) c1 (by rfl) 6 (by rfl) r (by omega)
  · exact cols_piece _ (by exact h) n g 2 (by show 2 < 6; omega) c2 (by rfl) 12 (by rfl) r (by omega)
  · exact cols_piece _ (by exact h) n g 3 (by show 3 < 6; omega) c3 (by rfl) 18 (by rfl) r (by omega)
  · exact cols_piece _ (by exact h) n g 4 (by show 4 < 6; omega) c4 (by rfl) 24 (by rfl) r (by omega)
  · exact cols_piece _ (by exact h) n g 5 (by show 5 < 6; omega) c5 (by rfl) 30 (by rfl) r (by omega)

/-! ## The encoding at an index -/

/-- The encoding at point `n` and column `g = 6·f + r`, with `k = r mod 3`. -/
theorem pay2_at_split (x0 : Vec Ideal S2048x3 .f32) (x1 : Vec Ideal S1x6 .f32) (n : Fin 2048) (g : Fin 36)
    (f : ℕ) (hf : f < 6) (r : Fin 6) (hg : g.val = 6 * f + r.val)
    (k : Fin 3) (fq : Fin 6) (hk : k.val = r.val % 3) (hfq : fq.val = f) :
    k0_pay2 (F := Ideal) x0 x1 (ix2 n g)
      = if r.val < 3 then Ideal.sin (x0 (ix2 n k) * x1 (ix2 (0 : Fin 1) fq))
        else Ideal.cos (x0 (ix2 n k) * x1 (ix2 (0 : Fin 1) fq)) := by
  have h1 : S1x6.ShapeCasts S6 := shapeCasts_S1x6_S6
  have h2 : S2048x3.ShapeCasts S2048x1x3 := shapeCasts_S2048x3_S2048x1x3
  have h3 : S6.ShapeCasts S1x6x1 := shapeCasts_S6_S1x6x1
  have h4 : S2048x1x3.Broadcasts S2048x6x3 := broadcasts_S2048x1x3_S2048x6x3
  have h5 : S1x6x1.Broadcasts S2048x6x3 := broadcasts_S1x6x1_S2048x6x3
  have hc : S2048x1x3.ShapeCasts S2048x3 := shapeCasts_S2048x1x3_S2048x3
  have hcat : Shape.Concatenates [S2048x3, S2048x3] S2048x6 1 := concatenates_S2048x3_S2048x3_S2048x6_d1
  unfold k0_pay2
  refine (six_cols _ _ _ _ _ _ concatenates_S2048x6_S2048x6_S2048x6_S2048x6_S2048x6_S2048x6_S2048x36_d1 n g f hf r hg).trans ?_
  obtain rfl | rfl | rfl | rfl | rfl | rfl : f = 0 ∨ f = 1 ∨ f = 2 ∨ f = 3 ∨ f = 4 ∨ f = 5 := by omega
  · exact enc_chunk_at x0 x1 h1 h2 h3 h4 h5 0 slices_S2048x6x3_o0_0_0_S2048x1x3 hc hcat n r k fq hk hfq
  · exact enc_chunk_at x0 x1 h1 h2 h3 h4 h5 1 slices_S2048x6x3_o0_1_0_S2048x1x3 hc hcat n r k fq hk hfq
  · exact enc_chunk_at x0 x1 h1 h2 h3 h4 h5 2 slices_S2048x6x3_o0_2_0_S2048x1x3 hc hcat n r k fq hk hfq
  · exact enc_chunk_at x0 x1 h1 h2 h3 h4 h5 3 slices_S2048x6x3_o0_3_0_S2048x1x3 hc hcat n r k fq hk hfq
  · exact enc_chunk_at x0 x1 h1 h2 h3 h4 h5 4 slices_S2048x6x3_o0_4_0_S2048x1x3 hc hcat n r k fq hk hfq
  · exact enc_chunk_at x0 x1 h1 h2 h3 h4 h5 5 slices_S2048x6x3_o0_5_0_S2048x1x3 hc hcat n r k fq hk hfq

/-- **The kernel's encoding at point `n` and channel `g`**: the sine of `p[n, g mod 3] · q[g / 6]` on the first three
    channels of each group of six, the cosine on the last three. -/
theorem pay2_at (x0 : Vec Ideal S2048x3 .f32) (x1 : Vec Ideal S1x6 .f32) (n : Fin 2048) (g : Fin 36) :
    k0_pay2 (F := Ideal) x0 x1 (ix2 n g)
      = if g.val % 6 < 3 then
          Ideal.sin (x0 (ix2 n (Cert.TentSpec.coordOf g)) * x1 (ix2 (0 : Fin 1) (Cert.TentSpec.freqOf g)))
        else Ideal.cos (x0 (ix2 n (Cert.TentSpec.coordOf g)) * x1 (ix2 (0 : Fin 1) (Cert.TentSpec.freqOf g))) := by
  have hlt := g.isLt
  exact pay2_at_split x0 x1 n g (g.val / 6) (by omega) (⟨g.val % 6, Nat.mod_lt _ (by decide)⟩ : Fin 6)
    (by show g.val = 6 * (g.val / 6) + g.val % 6; omega) (Cert.TentSpec.coordOf g) (Cert.TentSpec.freqOf g)
    (by show g.val % 3 = g.val % 6 % 3; omega) rfl

end Cert.KernelIdeal.EncAt

end
-- ==== Proof.TentReal.lean ====
/-
  The interpolation law in the specification's own terms. For a real encoding `e` the position `(e + 1) · ½ · 31`, its
  floor and the weight `w` are real; the lower row `lo` is a number `k ≤ 31` and the upper row is `min 31 (k + 1)`. So for
  a table row of real entries the accumulation over the 32 rows is `T[lo] · (1 − w) + T[hi] · w`.
-/
import proofs.«109105_j28028956573735_2_alg».proof.Proof.TentLaw

noncomputable section

namespace Cert.TentSpec

open Idealize.ShloMosaic

/-- The three constants of the position map are the reals `1`, `1/2` and `31`; the zero pattern is `0`. -/
theorem one_eq : one = ((1 : ℝ) : EReal) := by
  unfold one; simp [Ideal.ofBits, Ideal.ieee, -EReal.coe_mul]; norm_num
theorem half_eq : half = ((1 / 2 : ℝ) : EReal) := by
  unfold half; simp [Ideal.ofBits, Ideal.ieee, -EReal.coe_mul]; norm_num
theorem rows_eq : rows = ((31 : ℝ) : EReal) := by
  unfold rows; simp [Ideal.ofBits, Ideal.ieee, -EReal.coe_mul]; norm_num
theorem zero_eq : Ideal.ofBits .f32 0x00000000#32 = (0 : EReal) := by
  simp [Ideal.ofBits, Ideal.ieee]

/-- The position of a real encoding is real. -/
theorem pos_coe (e : ℝ) : pos (e : EReal) = (((e + 1) * (1 / 2) * 31 : ℝ) : EReal) := by
  unfold pos
  rw [one_eq, half_eq, rows_eq, ← EReal.coe_add, ← EReal.coe_mul, ← EReal.coe_mul]

/-- The weight of a real encoding is real: the fractional part of its position. -/
theorem wgt_coe (e : ℝ) :
    wgt (e : EReal) = ((((e + 1) * (1 / 2) * 31) - (⌊(e + 1) * (1 / 2) * 31⌋ : ℝ) : ℝ) : EReal) := by
  unfold wgt
  rw [pos_coe]
  show ((((e + 1) * (1 / 2) * 31 : ℝ)) : EReal) - (((⌊(e + 1) * (1 / 2) * 31⌋ : ℤ) : ℝ) : EReal) = _
  rw [← EReal.coe_sub]

/-- The lower row is the number `(lo e).toNat ≤ 31`, and the upper row is the next number, clamped. -/
theorem lo_eq_ofNat (e : EReal) : lo e = BitVec.ofNat 32 (lo e).toNat :=
  BitVec.eq_of_toNat_eq (by rw [BitVec.toNat_ofNat, Nat.mod_eq_of_lt (lo e).isLt])
theorem hi_eq_ofNat (e : EReal) : hi e = BitVec.ofNat 32 (min 31 ((lo e).toNat + 1)) := by
  have h := clampRow_succ (lo e).toNat (clampRow_toNat_le _)
  rw [← lo_eq_ofNat e] at h
  exact h

/-- The row index of a row number `k ≤ 31`. -/
theorem rowIx_ofNat (k : ℕ) (hk : k ≤ 31) : rowIx (BitVec.ofNat 32 k) = ⟨k, by omega⟩ := by
  unfold rowIx
  apply Fin.ext
  show (BitVec.ofNat 32 k).toNat % 32 = k
  rw [BitVec.toNat_ofNat]
  omega

/-- THE LAW: for a real encoding and a table row of real entries, the accumulation over the 32 rows is the linear
    interpolation between the lower and the upper row. -/
theorem tent_interp (e : ℝ) (T : Fin 32 → EReal) (hT : ∀ r, ∃ t : ℝ, T r = (t : EReal)) :
    tentChain one (Ideal.ofBits .f32 0x00000000#32) (wgt (e : EReal)) (lo (e : EReal)) (hi (e : EReal)) T
      = T (rowIx (lo (e : EReal))) * (one - wgt (e : EReal)) + T (rowIx (hi (e : EReal))) * wgt (e : EReal) := by
  choose T' hT' using hT
  have hfun : T = fun r => (T' r : EReal) := funext hT'
  obtain ⟨k, hk, hlo, hhi⟩ : ∃ k : ℕ, k ≤ 31 ∧ lo (e : EReal) = BitVec.ofNat 32 k
      ∧ hi (e : EReal) = BitVec.ofNat 32 (min 31 (k + 1)) :=
    ⟨_, clampRow_toNat_le _, lo_eq_ofNat _, hi_eq_ofNat _⟩
  rw [hhi, hlo, rowIx_ofNat k hk, rowIx_ofNat _ (by omega : min 31 (k + 1) ≤ 31), wgt_coe, one_eq, zero_eq, hfun]
  exact tentChain_ofNat 1 _ T' k hk

end Cert.TentSpec

end
-- ==== Proof.KernelBlock.lean ====
/-
  What the kernel body stores, as one function of the three blocks it loads, read at an index. With `X0` the block of
  2048 points, `X1` the six frequencies and `X2` the table, all of real entries, the stored value at point `n` and column
  `36 · c + g` is `X2[g,c,lo] · (1 − w) + X2[g,c,hi] · w + e`: `e` the encoding of channel `g` at point `n`, `w`, `lo`, `hi`
  the weight and the two clamped rows of `e`. The accumulation over the 32 rows becomes the interpolation by the law for
  real entries; the weight and the rows are the specification's functions of the encoding by unfolding.
-/
import proofs.«109105_j28028956573735_2_alg».proof.Proof.KernelAcc
import proofs.«109105_j28028956573735_2_alg».proof.Proof.KernelEnc
import proofs.«109105_j28028956573735_2_alg».proof.Proof.TentReal

noncomputable section

namespace Cert.KernelIdeal.BlockAt

open Cert.KernelIdeal Cert.KernelIdeal.Gen Idealize.ShloMosaic Idealize.ShloMosaic.ValueIdx Cert.TentSpec

/-- The body's one stored value as a pure function of the three loaded blocks. -/
def body (X0 : Vec Ideal S2048x3 .f32) (X1 : Vec Ideal S1x6 .f32) (X2 : Vec Ideal S36x16x32 .f32) :
    FVec Ideal S2048x576 .f32 :=
  k0_pay1 (k0_pay2 X0 X1) (k0_pay9 X2) (k0_pay34 (k0_pay5 X0 X1) (k0_pay7 (k0_pay6 X0 X1) 0#32 31#32) (k0_pay8 (k0_pay6 X0 X1) 0#32 31#32) (k0_pay9 X2) (k0_pay32 (k0_pay5 X0 X1) (k0_pay7 (k0_pay6 X0 X1) 0#32 31#32) (k0_pay8 (k0_pay6 X0 X1) 0#32 31#32) (k0_pay9 X2) (k0_pay30 (k0_pay5 X0 X1) (k0_pay7 (k0_pay6 X0 X1) 0#32 31#32) (k0_pay8 (k0_pay6 X0 X1) 0#32 31#32) (k0_pay9 X2) (k0_pay28 (k0_pay5 X0 X1) (k0_pay7 (k0_pay6 X0 X1) 0#32 31#32) (k0_pay8 (k0_pay6 X0 X1) 0#32 31#32) (k0_pay9 X2) (k0_pay26 (k0_pay5 X0 X1) (k0_pay7 (k0_pay6 X0 X1) 0#32 31#32) (k0_pay8 (k0_pay6 X0 X1) 0#32 31#32) (k0_pay9 X2) (k0_pay24 (k0_pay5 X0 X1) (k0_pay7 (k0_pay6 X0 X1) 0#32 31#32) (k0_pay8 (k0_pay6 X0 X1) 0#32 31#32) (k0_pay9 X2) (k0_pay22 (k0_pay5 X0 X1) (k0_pay7 (k0_pay6 X0 X1) 0#32 31#32) (k0_pay8 (k0_pay6 X0 X1) 0#32 31#32) (k0_pay9 X2) (k0_pay20 (k0_pay5 X0 X1) (k0_pay7 (k0_pay6 X0 X1) 0#32 31#32) (k0_pay8 (k0_pay6 X0 X1) 0#32 31#32) (k0_pay9 X2) (k0_pay18 (k0_pay5 X0 X1) (k0_pay7 (k0_pay6 X0 X1) 0#32 31#32) (k0_pay8 (k0_pay6 X0 X1) 0#32 31#32) (k0_pay9 X2) (k0_pay16 (k0_pay5 X0 X1) (k0_pay7 (k0_pay6 X0 X1) 0#32 31#32) (k0_pay8 (k0_pay6 X0 X1) 0#32 31#32) (k0_pay9 X2) (k0_pay14 (k0_pay5 X0 X1) (k0_pay7 (k0_pay6 X0 X1) 0#32 31#32) (k0_pay8 (k0_pay6 X0 X1) 0#32 31#32) (k0_pay9 X2) (k0_pay12 (k0_pay5 X0 X1) (k0_pay7 (k0_pay6 X0 X1) 0#32 31#32) (k0_pay8 (k0_pay6 X0 X1) 0#32 31#32) (k0_pay9 X2) (k0_pay10 (k0_pay5 X0 X1) (k0_pay6 X0 X1) 0#32 31#32 X2) (k0_pay11 (k0_pay5 X0 X1) (k0_pay6 X0 X1) 0#32 31#32)) (k0_pay13 (k0_pay7 (k0_pay6 X0 X1) 0#32 31#32)) 4#32) (k0_pay15 (k0_pay5 X0 X1) (k0_pay7 (k0_pay6 X0 X1) 0#32 31#32) (k0_pay8 (k0_pay6 X0 X1) 0#32 31#32))) (k0_pay17 (k0_pay7 (k0_pay6 X0 X1) 0#32 31#32)) 9#32) (k0_pay19 (k0_pay5 X0 X1) (k0_pay7 (k0_pay6 X0 X1) 0#32 31#32) (k0_pay8 (k0_pay6 X0 X1) 0#32 31#32))) (k0_pay21 (k0_pay7 (k0_pay6 X0 X1) 0#32 31#32)) 14#32) (k0_pay23 (k0_pay5 X0 X1) (k0_pay7 (k0_pay6 X0 X1) 0#32 31#32) (k0_pay8 (k0_pay6 X0 X1) 0#32 31#32))) (k0_pay25 (k0_pay7 (k0_pay6 X0 X1) 0#32 31#32)) 19#32) (k0_pay27 (k0_pay5 X0 X1) (k0_pay7 (k0_pay6 X0 X1) 0#32 31#32) (k0_pay8 (k0_pay6 X0 X1) 0#32 31#32))) (k0_pay29 (k0_pay7 (k0_pay6 X0 X1) 0#32 31#32)) 24#32) (k0_pay31 (k0_pay5 X0 X1) (k0_pay7 (k0_pay6 X0 X1) 0#32 31#32) (k0_pay8 (k0_pay6 X0 X1) 0#32 31#32))) (k0_pay33 (k0_pay7 (k0_pay6 X0 X1) 0#32 31#32)) 29#32) (k0_pay35 (k0_pay5 X0 X1) (k0_pay7 (k0_pay6 X0 X1) 0#32 31#32) (k0_pay8 (k0_pay6 X0 X1) 0#32 31#32))

/-- The encoding of channel `g` at point `n` of a block. -/
def encB (X0 : Vec Ideal S2048x3 .f32) (X1 : Vec Ideal S1x6 .f32) (n : Fin 2048) (g : Fin 36) : EReal :=
  if g.val % 6 < 3 then Ideal.sin (X0 (ix2 n (coordOf g)) * X1 (ix2 (0 : Fin 1) (freqOf g)))
  else Ideal.cos (X0 (ix2 n (coordOf g)) * X1 (ix2 (0 : Fin 1) (freqOf g)))

/-- The weight, and the two clamped rows, are the specification's functions of the encoding. -/
theorem pay5_at (X0 : Vec Ideal S2048x3 .f32) (X1 : Vec Ideal S1x6 .f32) (i : S2048x36.Idx) :
    k0_pay5 X0 X1 i = wgt (k0_pay2 X0 X1 i) := rfl
theorem pay7_at (X0 : Vec Ideal S2048x3 .f32) (X1 : Vec Ideal S1x6 .f32) (i : S2048x36.Idx) :
    k0_pay7 (k0_pay6 X0 X1) 0#32 31#32 i = lo (k0_pay2 X0 X1 i) := rfl
theorem pay8_at (X0 : Vec Ideal S2048x3 .f32) (X1 : Vec Ideal S1x6 .f32) (i : S2048x36.Idx) :
    k0_pay8 (k0_pay6 X0 X1) 0#32 31#32 i = hi (k0_pay2 X0 X1 i) := rfl

/-- The encoding of real points and frequencies is real. -/
theorem encB_real (X0 : Vec Ideal S2048x3 .f32) (X1 : Vec Ideal S1x6 .f32)
    (h0 : ∀ i, ∃ r : ℝ, X0 i = (r : EReal)) (h1 : ∀ i, ∃ r : ℝ, X1 i = (r : EReal)) (n : Fin 2048) (g : Fin 36) :
    ∃ e : ℝ, encB X0 X1 n g = (e : EReal) := by
  obtain ⟨p, hp⟩ := h0 (ix2 n (coordOf g))
  obtain ⟨q, hq⟩ := h1 (ix2 (0 : Fin 1) (freqOf g))
  unfold encB
  rw [hp, hq, ← EReal.coe_mul]
  split
  · exact ⟨Real.sin (p * q), rfl⟩
  · exact ⟨Real.cos (p * q), rfl⟩

/-- THE BODY AT AN INDEX, for blocks of real entries. -/
theorem body_at (X0 : Vec Ideal S2048x3 .f32) (X1 : Vec Ideal S1x6 .f32) (X2 : Vec Ideal S36x16x32 .f32)
    (h0 : ∀ i, ∃ r : ℝ, X0 i = (r : EReal)) (h1 : ∀ i, ∃ r : ℝ, X1 i = (r : EReal))
    (h2 : ∀ i, ∃ r : ℝ, X2 i = (r : EReal))
    (n : Fin 2048) (g : Fin 36) (c : Fin 16) (J : Fin 576) (hJ : J.val = c.val * 36 + g.val) :
    body X0 X1 X2 (ix2 n J)
      = X2 (ix3 g c (rowIx (lo (encB X0 X1 n g)))) * (one - wgt (encB X0 X1 n g))
        + X2 (ix3 g c (rowIx (hi (encB X0 X1 n g)))) * wgt (encB X0 X1 n g)
        + encB X0 X1 n g := by
  unfold body
  rw [Cert.KernelIdeal.AccAt.acc_at (k0_pay2 X0 X1) (k0_pay5 X0 X1) (k0_pay6 X0 X1) X2 n g c J hJ,
    pay5_at, pay7_at, pay8_at, Cert.KernelIdeal.EncAt.pay2_at X0 X1 n g]
  show tentChain one (Ideal.ofBits .f32 0x00000000#32) (wgt (encB X0 X1 n g)) (lo (encB X0 X1 n g))
      (hi (encB X0 X1 n g)) (fun r => X2 (ix3 g c r)) + encB X0 X1 n g = _
  obtain ⟨e, he⟩ := encB_real X0 X1 h0 h1 n g
  rw [he, tent_interp e (fun r => X2 (ix3 g c r)) (fun r => h2 _)]

end Cert.KernelIdeal.BlockAt

end
-- ==== Proof.KernelArray.lean ====
/-
  From blocks to the array. Grid point `t` of the 128 loads rows `2048·t … 2048·t + 2047` of the points, the whole
  frequency vector (as a `1 × 6` matrix) and the whole table (its trailing unit axis dropped), and writes rows
  `2048·t … 2048·t + 2047` of the result. What it writes is, index by index, the specification's function of the three
  argument arrays (the body's value at a block index, with the block's entries read back as the arguments' entries);
  the 128 row blocks cover the result array, so after the run the array is the specification's function everywhere.
-/
import proofs.«109105_j28028956573735_2_alg».proof.Proof.Gen.KernelIdeal.Value
import proofs.«109105_j28028956573735_2_alg».proof.Proof.KernelBlock
import Idealize.ShloMosaic.Lib.Pipeline.Value
import Idealize.ShloMosaic.Lib.StableHlo.Run
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx Cert.TentSpec Cert.KernelIdeal.BlockAt
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the points' window and the result's window are at row block `t`, the
    frequencies' and the table's windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- A `[a, b, c, 1]` array cast to `[a, b, c]` reads, at `(i, j, k)`, the operand at `(i, j, k, 0)`. -/
theorem shapeCast_abc1_abc_apply {α : Type} {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    omega)

/-! ## The arrays the region finds -/

/-- The frequencies' window stages the frequency vector cast to a `1 × 6` matrix. -/
theorem V_main_v1 (c : Dev nD) : (V m c main_v1 : S1x6.Idx → EReal)
    = shapeCast S1x6 (m ((c : Thread nD τ).loc main_arg1) : S6.Idx → EReal) Facts₀.shapeCasts_S6_S1x6 := by
  dsimp only [Gen.V, Gen.hostOps0]; after_results; rfl

/-- The table's window stages the table with its trailing unit axis dropped. -/
theorem V_main_v0 (c : Dev nD) : (V m c main_v0 : S36x16x32.Idx → EReal)
    = shapeCast S36x16x32 (m ((c : Thread nD τ).loc main_arg2) : S36x16x32x1.Idx → EReal)
        Facts₀.shapeCasts_S36x16x32x1_S36x16x32 := by
  dsimp only [Gen.V, Gen.hostOps0]; after_results; rfl

/-! ## The blocks read back as the arguments -/

/-- Row `n` of the points' block at point `t` is row `2048·t + n` of the points. -/
theorem iblk0_apply (c : Dev nD) (t : Fin cfg0.N) (n : Fin 2048) (k : Fin 3) (N : Fin 262144)
    (hN : N.val = t.val * 2048 + n.val) :
    (iblk m c 0 t : Vec Ideal S2048x3 .f32) (ix2 n k)
      = (m ((c : Thread nD τ).loc main_arg0) : S262144x3.Idx → EReal) (ix2 N k) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 2048 + 1 * n.val = N.val; rw [e0, hN]; omega
  | ⟨1, _⟩ => show win0_0.index t (1 : Fin 2) * 3 + 1 * k.val = k.val; rw [e1]; omega

/-- The frequencies' block is the frequency vector. -/
theorem iblk1_apply (c : Dev nD) (t : Fin cfg0.N) (u : Fin 1) (f : Fin 6) :
    (iblk m c 1 t : Vec Ideal S1x6 .f32) (ix2 u f)
      = (m ((c : Thread nD τ).loc main_arg1) : S6.Idx → EReal) (ix1 f) := by
  obtain ⟨-, -, e0, e1, -⟩ := idx_facts t
  unfold iblk
  rw [View.read_apply]
  show V m c main_v1 _ = _
  rw [V_main_v1, ← shapeCast_a_1a_apply (m ((c : Thread nD τ).loc main_arg1) : S6.Idx → EReal)
    Facts₀.shapeCasts_S6_S1x6 u f]
  congr 1
  funext a
  apply Fin.ext
  match a with
  | ⟨0, _⟩ => show win0_1.index t (0 : Fin 2) * 1 + 1 * u.val = u.val; rw [e0]; omega
  | ⟨1, _⟩ => show win0_1.index t (1 : Fin 2) * 6 + 1 * f.val = f.val; rw [e1]; omega

/-- The table's block is the table. -/
theorem iblk2_apply (c : Dev nD) (t : Fin cfg0.N) (g : Fin 36) (k : Fin 16) (r : Fin 32) :
    (iblk m c 2 t : Vec Ideal S36x16x32 .f32) (ix3 g k r)
      = (m ((c : Thread nD τ).loc main_arg2) : S36x16x32x1.Idx → EReal) (ix4 g k r (0 : Fin 1)) := by
  obtain ⟨-, -, -, -, e0, e1, e2, -⟩ := idx_facts t
  unfold iblk
  rw [View.read_apply]
  show V m c main_v0 _ = _
  rw [V_main_v0, ← shapeCast_abc1_abc_apply (m ((c : Thread nD τ).loc main_arg2) : S36x16x32x1.Idx → EReal)
    Facts₀.shapeCasts_S36x16x32x1_S36x16x32 g k r]
  congr 1
  funext a
  apply Fin.ext
  match a with
  | ⟨0, _⟩ => show win0_2.index t (0 : Fin 3) * 36 + 1 * g.val = g.val; rw [e0]; omega
  | ⟨1, _⟩ => show win0_2.index t (1 : Fin 3) * 16 + 1 * k.val = k.val; rw [e1]; omega
  | ⟨2, _⟩ => show win0_2.index t (2 : Fin 3) * 32 + 1 * r.val = r.val; rw [e2]; omega

/-! ## Blocks of real arguments are real -/

section Real
variable (c : Dev nD)
variable (hP : ∀ i, ∃ r : ℝ, (m ((c : Thread nD τ).loc main_arg0) : S262144x3.Idx → EReal) i = (r : EReal))
variable (hQ : ∀ i, ∃ r : ℝ, (m ((c : Thread nD τ).loc main_arg1) : S6.Idx → EReal) i = (r : EReal))
variable (hT : ∀ i, ∃ r : ℝ, (m ((c : Thread nD τ).loc main_arg2) : S36x16x32x1.Idx → EReal) i = (r : EReal))

include hP in
theorem iblk0_real (t : Fin cfg0.N) (i : S2048x3.Idx) : ∃ r : ℝ, (iblk m c 0 t : Vec Ideal S2048x3 .f32) i = (r : EReal) := by
  unfold iblk
  rw [View.read_apply]
  show ∃ r : ℝ, V m c main_arg0 _ = _
  rw [V_main_arg0]
  exact hP _

include hQ in
theorem iblk1_real (t : Fin cfg0.N) (i : S1x6.Idx) : ∃ r : ℝ, (iblk m c 1 t : Vec Ideal S1x6 .f32) i = (r : EReal) := by
  unfold iblk
  rw [View.read_apply]
  show ∃ r : ℝ, V m c main_v1 _ = _
  rw [V_main_v1]
  unfold shapeCast
  exact hQ _

include hT in
theorem iblk2_real (t : Fin cfg0.N) (i : S36x16x32.Idx) : ∃ r : ℝ, (iblk m c 2 t : Vec Ideal S36x16x32 .f32) i = (r : EReal) := by
  unfold iblk
  rw [View.read_apply]
  show ∃ r : ℝ, V m c main_v0 _ = _
  rw [V_main_v0]
  unfold shapeCast
  exact hT _

/-- The encoding computed from the blocks at point `t` is the encoding of the arguments at row `2048·t + n`. -/
theorem encB_blk (t : Fin cfg0.N) (n : Fin 2048) (g : Fin 36) (N : Fin 262144) (hN : N.val = t.val * 2048 + n.val) :
    encB (iblk m c 0 t) (iblk m c 1 t) n g
      = enc (m ((c : Thread nD τ).loc main_arg0)) (m ((c : Thread nD τ).loc main_arg1)) N g := by
  unfold encB enc angle
  rw [iblk0_apply m c t n (coordOf g) N hN, iblk1_apply m c t (0 : Fin 1) (freqOf g)]

include hP hQ hT in
/-- WHAT POINT `t` WRITES BACK is block `t` of the specification's function of the argument arrays. -/
theorem flushed_eq (t : Fin cfg0.N) :
    (dats m 0 c).flushed 3 t = ((cfg0.win 3).blk t).view.read (Elt Ideal)
      (result (m ((c : Thread nD τ).loc main_arg0)) (m ((c : Thread nD τ).loc main_arg1))
        (m ((c : Thread nD τ).loc main_arg2))) := by
  rw [Cert.KernelIdeal.Value.flushed3]
  unfold out0_3
  rw [View.canon_unit_zero hz2]
  simp only [View.ld_unit_zero (S := S2048x3) hz2, View.ld_unit_zero (S := S1x6) hz2,
    View.ld_unit_zero (S := S36x16x32) hz3]
  obtain ⟨-, -, -, -, -, -, -, e0, e1⟩ := idx_facts t
  funext j
  show body (iblk m c 0 t) (iblk m c 1 t) (iblk m c 2 t) j
    = result _ _ _ (((cfg0.win 3).blk t).view.emb j)
  obtain ⟨n, J, rfl⟩ : ∃ (n : Fin 2048) (J : Fin 576), j = ix2 n J := ⟨j 0, j 1, eq_ix2 j⟩
  have hJ : J.val = (featOf J).val * 36 + (chanOf J).val := by
    show J.val = J.val / 36 * 36 + J.val % 36
    omega
  have hNlt : t.val * 2048 + n.val < 262144 := by
    have ht : t.val < 128 := lt_of_lt_of_eq t.isLt N_0
    have := n.isLt; omega
  have hemb : ((cfg0.win 3).blk t).view.emb (ix2 n J) = ix2 (⟨t.val * 2048 + n.val, hNlt⟩ : Fin 262144) J := by
    funext a
    apply Fin.ext
    match a with
    | ⟨0, _⟩ => show win0_3.index t (0 : Fin 2) * 2048 + 1 * n.val = t.val * 2048 + n.val; rw [e0]; omega
    | ⟨1, _⟩ => show win0_3.index t (1 : Fin 2) * 576 + 1 * J.val = J.val; rw [e1]; omega
  rw [hemb, body_at _ _ _ (iblk0_real m c hP t) (iblk1_real m c hQ t) (iblk2_real m c hT t) n (chanOf J) (featOf J) J hJ,
    encB_blk m c t n (chanOf J) ⟨t.val * 2048 + n.val, hNlt⟩ rfl, iblk2_apply, iblk2_apply]
  rfl

/-- An index of the result array is in point `t`'s block iff each coordinate is in the block's range on its axis. -/
theorem mem_blk (t : Fin cfg0.N) (i : S262144x576.Idx) :
    i ∈ ((cfg0.win 3).blk t).view.set ↔ ∀ a : Fin 2, win0_3.index t a * S2048x576.size a ≤ (i a).val
      ∧ (i a).val < win0_3.index t a * S2048x576.size a + S2048x576.size a := by
  show i ∈ ((View.whole main_v2).slice (win0_3.rect t)).set ↔ _
  rw [View.set_slice_whole, Rect.mem_set_unit]
  exact Iff.rfl

/-- The 128 row blocks cover the result array: row `r` is in the block of point `r / 2048`. -/
theorem cover (i : S262144x576.Idx) :
    ∃ t : Fin cfg0.N, (cfg0.win 3).flush t = true ∧ i ∈ ((cfg0.win 3).blk t).view.set := by
  have h0 : (i 0).val < 262144 := (i 0).isLt
  have h1 : (i 1).val < 576 := (i 1).isLt
  have hN : cfg0.N = 128 := N_0
  let t : Fin cfg0.N := ⟨(i 0).val / 2048, by rw [hN]; omega⟩
  obtain ⟨-, -, -, -, -, -, -, e0, e1⟩ := idx_facts t
  refine ⟨t, flush0_3 t, ?_⟩
  rw [mem_blk]
  intro a
  match a with
  | ⟨0, _⟩ =>
    show win0_3.index t (0 : Fin 2) * 2048 ≤ (i 0).val ∧ (i 0).val < win0_3.index t (0 : Fin 2) * 2048 + 2048
    rw [e0]; show (i 0).val / 2048 * 2048 ≤ (i 0).val ∧ (i 0).val < (i 0).val / 2048 * 2048 + 2048; omega
  | ⟨1, _⟩ =>
    show win0_3.index t (1 : Fin 2) * 576 ≤ (i 1).val ∧ (i 1).val < win0_3.index t (1 : Fin 2) * 576 + 576
    rw [e1]; omega

include hP hQ hT in
/-- THE ARRAY after the run is the specification's function of the argument arrays. -/
theorem final : (dats m 0 c).arrAt 3 cfg0.N
    = result (m ((c : Thread nD τ).loc main_arg0)) (m ((c : Thread nD τ).loc main_arg1))
        (m ((c : Thread nD τ).loc main_arg2)) :=
  (dats m 0 c).arrAt_eq_of_cover 3 _ (fun t _ => flushed_eq m c hP hQ hT t) (cover)

end Real

/-- The kernel's run, read: for argument arrays of real entries the result array ends at the specification's function
    of them, and the arguments are unchanged. -/
theorem run
    (hP : ∀ c : Dev nD, ∀ i, ∃ r : ℝ, (m ((c : Thread nD τ).loc main_arg0) : S262144x3.Idx → EReal) i = (r : EReal))
    (hQ : ∀ c : Dev nD, ∀ i, ∃ r : ℝ, (m ((c : Thread nD τ).loc main_arg1) : S6.Idx → EReal) i = (r : EReal))
    (hT : ∀ c : Dev nD, ∀ i, ∃ r : ℝ, (m ((c : Thread nD τ).loc main_arg2) : S36x16x32x1.Idx → EReal) i = (r : EReal)) :
    θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hP c) (hQ c) (hT c)), (h c).2⟩)
    (Cert.KernelIdeal.Value.run_blocks m ρ)

end Cert.KernelIdeal.ArrayValue

end
-- ==== Proof.RefGather.lean ====
/-
  The reference's row gather read at an index.

  The table has shape `[36, 32, 16]` (channel, row, feature) and the start indices have shape `[36, 262144, 1]`
  (channel, point, one component). The gather pairs the two channel axes (a batching axis), reads its one start
  component as a row number and takes a `1 × 1 × 16` slice. So the result at `(g, n, c)` is the table at channel `g`,
  feature `c`, and the row the start index at `(g, n, 0)` names: that index read as a signed number and clamped into
  `[0, 31]`, the rows a one-row slice can start at.
-/
import proofs.«109105_j28028956573735_2_alg».proof.Proof.Gen.ReferenceIdeal
import Idealize.ShloMosaic.Lib.ValueIdx

noncomputable section

namespace Cert.ReferenceIdeal.RefValue

open Cert.ReferenceIdeal Cert.ReferenceIdeal.Gen Idealize.ShloMosaic Idealize.ShloMosaic.ValueIdx

/-- A start index read as a signed number and clamped into the table's rows `[0, 31]`. -/
def gatherRow (q : BitVec 32) : Fin 32 := ⟨min q.toInt.toNat 31, by omega⟩

/-- THE GATHER READ AT `(g, n, c)`: the operand at channel `g`, the clamped start row, feature `c`. On the channel axis the
    operand index is the result's batch coordinate, on the row axis the clamped start, on the feature axis the
    result's offset coordinate; the other two summands are zero on each axis. -/
theorem gather_row_apply {α : Type} (x : S36x32x16.Idx → α) (idx : IVec S36x262144x1 32)
    (g : Fin 36) (n : Fin 262144) (c : Fin 16) :
    Host.gather gather_S36x32x16_S36x262144x1_S36x262144x16_2_1_0_0_1_2_1116 x idx (ix3 g n c)
      = x (ix3 g (gatherRow (idx (ix3 g n (0 : Fin 1)))) c) := by
  unfold Host.gather
  refine congrArg x ?_
  have hsi : gather_S36x32x16_S36x262144x1_S36x262144x16_2_1_0_0_1_2_1116.siIdx (ix3 g n c)
      ⟨List.idxOf (1 : Fin 3) gather_S36x32x16_S36x262144x1_S36x262144x16_2_1_0_0_1_2_1116.startIndexMap,
        List.idxOf_lt_length_iff.2 (List.mem_singleton.mpr rfl)⟩ = ix3 g n (0 : Fin 1) := by
    funext b; refine Fin.ext ?_
    match b with
    | ⟨0, _⟩ => rfl
    | ⟨1, _⟩ => rfl
    | ⟨2, _⟩ => rfl
  funext a
  refine Fin.ext ?_
  match a with
  | ⟨0, _⟩ =>
    show gather_S36x32x16_S36x262144x1_S36x262144x16_2_1_0_0_1_2_1116.start (ix3 g n c) idx 0
      + gather_S36x32x16_S36x262144x1_S36x262144x16_2_1_0_0_1_2_1116.batchCoord (ix3 g n c) 0
      + gather_S36x32x16_S36x262144x1_S36x262144x16_2_1_0_0_1_2_1116.offCoord (ix3 g n c) 0 = g.val
    have h1 : gather_S36x32x16_S36x262144x1_S36x262144x16_2_1_0_0_1_2_1116.start (ix3 g n c) idx 0 = 0 :=
      GatherDims.start_batching _ _ _ _ (List.mem_singleton.mpr rfl)
    have h2 : gather_S36x32x16_S36x262144x1_S36x262144x16_2_1_0_0_1_2_1116.batchCoord (ix3 g n c) 0 = g.val := rfl
    have h3 : gather_S36x32x16_S36x262144x1_S36x262144x16_2_1_0_0_1_2_1116.offCoord (ix3 g n c) 0 = 0 :=
      GatherDims.offCoord_eq_zero _ _ _ (fun h => ((GatherDims.mem_sKept _ _).mp h).2 (List.mem_singleton.mpr rfl))
    rw [h1, h2, h3]
    omega
  | ⟨1, _⟩ =>
    show gather_S36x32x16_S36x262144x1_S36x262144x16_2_1_0_0_1_2_1116.start (ix3 g n c) idx 1
      + gather_S36x32x16_S36x262144x1_S36x262144x16_2_1_0_0_1_2_1116.batchCoord (ix3 g n c) 1
      + gather_S36x32x16_S36x262144x1_S36x262144x16_2_1_0_0_1_2_1116.offCoord (ix3 g n c) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S36x32x16_S36x262144x1_S36x262144x16_2_1_0_0_1_2_1116.startIndexMap from List.mem_singleton.mpr rfl)]
    rw [hsi]
    rfl
  | ⟨2, _⟩ =>
    show gather_S36x32x16_S36x262144x1_S36x262144x16_2_1_0_0_1_2_1116.start (ix3 g n c) idx 2
      + gather_S36x32x16_S36x262144x1_S36x262144x16_2_1_0_0_1_2_1116.batchCoord (ix3 g n c) 2
      + gather_S36x32x16_S36x262144x1_S36x262144x16_2_1_0_0_1_2_1116.offCoord (ix3 g n c) 2 = c.val
    have h1 : gather_S36x32x16_S36x262144x1_S36x262144x16_2_1_0_0_1_2_1116.start (ix3 g n c) idx 2 = 0 := by
      unfold GatherDims.start
      rw [dif_neg (by decide)]
    have h2 : gather_S36x32x16_S36x262144x1_S36x262144x16_2_1_0_0_1_2_1116.batchCoord (ix3 g n c) 2 = 0 :=
      GatherDims.batchCoord_eq_zero _ _ _ (by decide)
    have h3 : gather_S36x32x16_S36x262144x1_S36x262144x16_2_1_0_0_1_2_1116.offCoord (ix3 g n c) 2 = c.val := rfl
    rw [h1, h2, h3]
    omega

end Cert.ReferenceIdeal.RefValue

end
-- ==== Proof.RefIsSpec.lean ====
/-
  The reference program's result, read at the exact extended reals, is the specification function.

  The reference multiplies every coordinate of a point by every frequency, takes the sine and the cosine, lays them
  side by side as `[point, frequency, sine | cosine, coordinate]` and flattens the last three axes into 36 channels,
  `g = 6·f + 3·s + k`. Per channel it maps the encoding `e` to a position `(e + 1)·½·31` on a 32-row table, takes the
  row below (clamped to `[0, 31]`), the row above (the lower row plus one, clamped again) and the fractional part as
  the weight of the upper row, gathers the two rows of the channel's table, interpolates, and adds `e`. The 36
  channels are then re-read as `(6, 3, 2)` on both summands, which keeps the channel number (`g = 6·f' + 2·a + b`), and
  the result is laid out `[point, feature · 36 + channel]`.

  Each stage below is read at explicit coordinates. The layout operations only move indices (decided by integer
  arithmetic on the coordinates); the two-piece concatenation reads its first piece where `g mod 6 < 3` and its second
  piece otherwise; the index wrap `i < 0 ? i + 32 : i` before each gather and the gather's own clamp of its start row
  are the identity, because a clamped row lies in `[0, 31]`. No law of arithmetic is used: every sum and product is
  in the order the specification writes it, so no finiteness of the inputs is needed.
-/
import proofs.«109105_j28028956573735_2_alg».proof.Proof.Gen.ReferenceIdeal.Read
import proofs.«109105_j28028956573735_2_alg».proof.Proof.Spec
import proofs.«109105_j28028956573735_2_alg».proof.Proof.RefGather

noncomputable section

namespace Cert.ReferenceIdeal.RefValue

open Cert.ReferenceIdeal Cert.ReferenceIdeal.Gen Cert.ReferenceIdeal.Read Cert.TentSpec
open Idealize.ShloMosaic Idealize.ShloMosaic.ValueIdx

variable (x0 : (⟨S262144x3, .f32⟩ : BufTy).Contents (Elt Ideal)) (x1 : (⟨S6, .f32⟩ : BufTy).Contents (Elt Ideal))
  (x2 : (⟨S36x16x32x1, .f32⟩ : BufTy).Contents (Elt Ideal))

/-! ## Words: a row in `[0, 31]` is not negative -/

/-- A 32-bit word whose unsigned value is at most 31 is not below zero as a signed number. -/
theorem slt_zero_of_le (q : BitVec 32) (h : q.toNat ≤ 31) : q.slt 0#32 = false := by
  have hq := BitVec.toInt_eq_toNat_cond q
  have e0 : (0#32 : BitVec 32).toInt = 0 := by decide
  simp only [BitVec.slt, e0, decide_eq_false_iff_not, not_lt]
  split at hq <;> omega

/-- The index wrap `i < 0 ? i + 32 : i` leaves a row in `[0, 31]` as it is. -/
theorem wrap_id (q : BitVec 32) (h : q.toNat ≤ 31) :
    Scalar.select (IntOp.cmpi .slt q 0#32) (IntOp.addi q 32#32) q = q := by
  show (if BitVec.ofBool (q.slt 0#32) = 1 then _ else q) = q
  rw [slt_zero_of_le q h]
  exact if_neg (by decide)

/-- Clamping a row in `[0, 31]`, read as a signed number, into `[0, 31]` gives the row itself. -/
theorem gatherRow_eq_rowIx (q : BitVec 32) (h : q.toNat ≤ 31) : gatherRow q = rowIx q := by
  have hq := BitVec.toInt_eq_toNat_cond q
  refine Fin.ext ?_
  show min q.toInt.toNat 31 = q.toNat % 32
  split at hq <;> omega

theorem lo_le (e : EReal) : (lo e).toNat ≤ 31 := clampRow_toNat_le _
theorem hi_le (e : EReal) : (hi e).toNat ≤ 31 := clampRow_toNat_le _

/-! ## The encoding: stages 0 to 11 -/

theorem idx_v0_v2 (n : Fin 262144) (f : Fin 6) (k : Fin 3) :
    idx_main_v0 (idx_main_v2 (ix3 n f k)) = ix2 n k := by
  funext a; match a with | ⟨0, _⟩ => rfl | ⟨1, _⟩ => rfl

theorem idx_v1_v3 (n : Fin 262144) (f : Fin 6) (k : Fin 3) :
    idx_main_v1 (idx_main_v3 (ix3 n f k)) = ix1 f := by
  funext a; match a with | ⟨0, _⟩ => rfl

/-- The product of a point's coordinate and a frequency. -/
theorem v4_at (n : Fin 262144) (g : Fin 36) :
    val_main_v4 (F := Ideal) x0 x1 (ix3 n (freqOf g) (coordOf g)) = angle x0 x1 n g := by
  rw [val_main_v4_apply, val_main_v2_apply, val_main_v0_apply, val_main_v3_apply, val_main_v1_apply,
    idx_v0_v2, idx_v1_v3]
  rfl

theorem idx_v7 (n : Fin 262144) (f : Fin 6) (k : Fin 3) :
    idx_main_v7 (ix4 n f (0 : Fin 1) k) = ix3 n f k := by
  funext a; match a with | ⟨0, _⟩ => rfl | ⟨1, _⟩ => rfl | ⟨2, _⟩ => rfl

theorem idx_v8 (n : Fin 262144) (f : Fin 6) (k : Fin 3) :
    idx_main_v8 (ix4 n f (0 : Fin 1) k) = ix3 n f k := by
  funext a; match a with | ⟨0, _⟩ => rfl | ⟨1, _⟩ => rfl | ⟨2, _⟩ => rfl

/-- Column `g` of the flattened sine and cosine arrays is the encoding of channel `g`: the column splits as
    `g = 6·f + 3·s + k`, and the joined axis reads the sine array at `s = 0` and the cosine array at `s = 1`. -/
theorem v10_at (n : Fin 262144) (g : Fin 36) :
    val_main_v10 (F := Ideal) x0 x1 (ix2 n g) = enc x0 x1 n g := by
  rw [val_main_v10_apply]
  unfold val_main_v9 enc
  have hn := n.isLt
  have hg := g.isLt
  by_cases h : g.val % 6 < 3
  · rw [if_pos h]
    refine (concatenate_pair_apply_left (t := S262144x6x2x3) (s₁ := S262144x6x1x3) (s₂ := S262144x6x1x3) _ _ _ _
      (idx_main_v10 (ix2 n g)) rfl
      (ix4 n (freqOf g) (0 : Fin 1) (coordOf g)) (fun b => ?_)).trans ?_
    · match b with
      | ⟨0, _⟩ => show n.val = (n.val * 36 + g.val) / 36; omega
      | ⟨1, _⟩ => show g.val / 6 = (n.val * 36 + g.val) / 6 % 6; omega
      | ⟨2, _⟩ => show 0 = (n.val * 36 + g.val) / 3 % 2; omega
      | ⟨3, _⟩ => show g.val % 3 = (n.val * 36 + g.val) % 3; omega
    · rw [val_main_v7_apply, val_main_v5_apply, idx_v7, v4_at]
      rfl
  · rw [if_neg h]
    refine (concatenate_pair_apply_right (t := S262144x6x2x3) (s₁ := S262144x6x1x3) (s₂ := S262144x6x1x3) _ _ _ _
      (idx_main_v10 (ix2 n g)) rfl rfl
      (ix4 n (freqOf g) (0 : Fin 1) (coordOf g)) (fun b hb => ?_) ?_).trans ?_
    · match b with
      | ⟨0, _⟩ => show n.val = (n.val * 36 + g.val) / 36; omega
      | ⟨1, _⟩ => show g.val / 6 = (n.val * 36 + g.val) / 6 % 6; omega
      | ⟨2, _⟩ => exact absurd rfl hb
      | ⟨3, _⟩ => show g.val % 3 = (n.val * 36 + g.val) % 3; omega
    · show 0 + 1 = (n.val * 36 + g.val) / 3 % 2; omega
    · rw [val_main_v8_apply, val_main_v6_apply, idx_v8, v4_at]
      rfl

theorem idx_v11 (g : Fin 36) (n : Fin 262144) : idx_main_v11 (ix2 g n) = ix2 n g := by
  funext a; match a with | ⟨0, _⟩ => rfl | ⟨1, _⟩ => rfl

/-- The transposed encoding array at `(g, n)`. -/
theorem v11_at (g : Fin 36) (n : Fin 262144) :
    val_main_v11 (F := Ideal) x0 x1 (ix2 g n) = enc x0 x1 n g := by
  rw [val_main_v11_apply, idx_v11, v10_at]

/-! ## The position, the weight and the two rows: stages 14 to 39 -/

theorem v19_at (g : Fin 36) (n : Fin 262144) :
    val_main_v19 (F := Ideal) x0 x1 (ix2 g n) = pos (enc x0 x1 n g) := by
  rw [val_main_v19_apply, val_main_v17_apply, val_main_v15_apply, v11_at, val_main_v14_apply, val_main_cst_apply,
    val_main_v16_apply, val_main_cst_0_apply, val_main_v18_apply, val_main_cst_1_apply]
  rfl

theorem v20_at (g : Fin 36) (n : Fin 262144) :
    val_main_v20 (F := Ideal) x0 x1 (ix2 g n) = Ideal.liftRound Int.floor (pos (enc x0 x1 n g)) := by
  rw [val_main_v20_apply, v19_at]
  rfl

theorem v21_at (g : Fin 36) (n : Fin 262144) :
    val_main_v21 (F := Ideal) x0 x1 (ix2 g n) = wgt (enc x0 x1 n g) := by
  rw [val_main_v21_apply, v19_at, v20_at]
  rfl

theorem v23_at (g : Fin 36) (n : Fin 262144) :
    val_main_v23 (F := Ideal) x0 x1 (ix2 g n) = lo (enc x0 x1 n g) := by
  rw [val_main_v23_apply, val_main_call0_v4_apply, val_main_call0_v3_apply, val_main_c_2_apply,
    val_main_call0_v2_apply, val_main_call0_v1_apply, val_main_call0_v0_apply, val_main_c_apply,
    val_main_v22_apply, v20_at]
  rfl

theorem v26_at (g : Fin 36) (n : Fin 262144) :
    val_main_v26 (F := Ideal) x0 x1 (ix2 g n) = hi (enc x0 x1 n g) := by
  rw [val_main_v26_apply, val_main_call1_v4_apply, val_main_call1_v3_apply, val_main_c_5_apply,
    val_main_call1_v2_apply, val_main_call1_v1_apply, val_main_call1_v0_apply, val_main_c_4_apply,
    val_main_v25_apply, v23_at, val_main_v24_apply, val_main_c_3_apply]
  rfl

/-- The lower row after the index wrap: unchanged, a clamped row being never negative. -/
theorem v31_at (g : Fin 36) (n : Fin 262144) :
    val_main_v31 (F := Ideal) x0 x1 (ix2 g n) = lo (enc x0 x1 n g) := by
  rw [val_main_v31_apply, val_main_v28_apply, val_main_v30_apply, v23_at, val_main_v27_apply, val_main_c_6_apply,
    val_main_v29_apply, val_main_c_7_apply]
  exact wrap_id _ (lo_le _)

/-- The upper row after the index wrap. -/
theorem v38_at (g : Fin 36) (n : Fin 262144) :
    val_main_v38 (F := Ideal) x0 x1 (ix2 g n) = hi (enc x0 x1 n g) := by
  rw [val_main_v38_apply, val_main_v35_apply, val_main_v37_apply, v26_at, val_main_v34_apply, val_main_c_8_apply,
    val_main_v36_apply, val_main_c_9_apply]
  exact wrap_id _ (hi_le _)

theorem idx_v32 (g : Fin 36) (n : Fin 262144) : idx_main_v32 (ix3 g n (0 : Fin 1)) = ix2 g n := by
  funext a; match a with | ⟨0, _⟩ => rfl | ⟨1, _⟩ => rfl

theorem idx_v39 (g : Fin 36) (n : Fin 262144) : idx_main_v39 (ix3 g n (0 : Fin 1)) = ix2 g n := by
  funext a; match a with | ⟨0, _⟩ => rfl | ⟨1, _⟩ => rfl

/-! ## The table, the two gathers and the interpolation: stages 12, 13 and 33 to 49 -/

/-- The table with its unit axis dropped and its last two axes exchanged: row `r`, feature `c` of channel `g`. -/
theorem v13_at (g : Fin 36) (r : Fin 32) (c : Fin 16) :
    val_main_v13 (F := Ideal) x2 (ix3 g r c) = x2 (ix4 g c r (0 : Fin 1)) := by
  rw [val_main_v13_apply, val_main_v12_apply]
  refine congrArg x2 ?_
  have hg := g.isLt
  have hr := r.isLt
  have hc := c.isLt
  funext a
  refine Fin.ext ?_
  match a with
  | ⟨0, _⟩ => show ((g.val * 16 + c.val) * 32 + r.val) / 512 = g.val; omega
  | ⟨1, _⟩ => show ((g.val * 16 + c.val) * 32 + r.val) / 32 % 16 = c.val; omega
  | ⟨2, _⟩ => show ((g.val * 16 + c.val) * 32 + r.val) / 1 % 32 = r.val; omega
  | ⟨3, _⟩ => rfl

/-- The first gather reads the table at the lower row: a clamped row is its own wrap and its own clamp. -/
theorem v33_at (g : Fin 36) (n : Fin 262144) (c : Fin 16) :
    val_main_v33 (F := Ideal) x0 x1 x2 (ix3 g n c)
      = x2 (ix4 g c (rowIx (lo (enc x0 x1 n g))) (0 : Fin 1)) := by
  unfold val_main_v33
  rw [gather_row_apply, val_main_v32_apply, idx_v32, v31_at, v13_at, gatherRow_eq_rowIx _ (lo_le _)]

/-- The second gather reads the table at the upper row. -/
theorem v40_at (g : Fin 36) (n : Fin 262144) (c : Fin 16) :
    val_main_v40 (F := Ideal) x0 x1 x2 (ix3 g n c)
      = x2 (ix4 g c (rowIx (hi (enc x0 x1 n g))) (0 : Fin 1)) := by
  unfold val_main_v40
  rw [gather_row_apply, val_main_v39_apply, idx_v39, v38_at, v13_at, gatherRow_eq_rowIx _ (hi_le _)]

theorem idx_v43_v44 (g : Fin 36) (n : Fin 262144) (c : Fin 16) :
    idx_main_v43 (idx_main_v44 (ix3 g n c)) = ix2 g n := by
  funext a; match a with | ⟨0, _⟩ => rfl | ⟨1, _⟩ => rfl

theorem idx_v46_v47 (g : Fin 36) (n : Fin 262144) (c : Fin 16) :
    idx_main_v46 (idx_main_v47 (ix3 g n c)) = ix2 g n := by
  funext a; match a with | ⟨0, _⟩ => rfl | ⟨1, _⟩ => rfl

theorem v44_at (g : Fin 36) (n : Fin 262144) (c : Fin 16) :
    val_main_v44 (F := Ideal) x0 x1 (ix3 g n c) = one - wgt (enc x0 x1 n g) := by
  rw [val_main_v44_apply, val_main_v43_apply, idx_v43_v44, val_main_v42_apply, val_main_v41_apply,
    val_main_cst_10_apply, v21_at]
  rfl

theorem v47_at (g : Fin 36) (n : Fin 262144) (c : Fin 16) :
    val_main_v47 (F := Ideal) x0 x1 (ix3 g n c) = wgt (enc x0 x1 n g) := by
  rw [val_main_v47_apply, val_main_v46_apply, idx_v46_v47, v21_at]

/-- The interpolated table value at channel `g`, point `n`, feature `c`. -/
theorem v49_at (g : Fin 36) (n : Fin 262144) (c : Fin 16) :
    val_main_v49 (F := Ideal) x0 x1 x2 (ix3 g n c)
      = x2 (ix4 g c (rowIx (lo (enc x0 x1 n g))) (0 : Fin 1)) * (one - wgt (enc x0 x1 n g))
        + x2 (ix4 g c (rowIx (hi (enc x0 x1 n g))) (0 : Fin 1)) * wgt (enc x0 x1 n g) := by
  rw [val_main_v49_apply, val_main_v45_apply, val_main_v48_apply, v33_at, v44_at, v40_at, v47_at]
  rfl

/-! ## The channel axis split as `(6, 3, 2)`, the encoding added, and the result's layout: stages 50 to 56 -/

theorem idx_v50_v51 (f : Fin 6) (a : Fin 3) (b : Fin 2) (c : Fin 16) (n : Fin 262144) (G : Fin 36)
    (hG : G.val = 6 * f.val + 2 * a.val + b.val) :
    idx_main_v50 (idx_main_v51 (ix5 f a b c n)) = ix3 G n c := by
  have hf := f.isLt
  have ha := a.isLt
  have hb := b.isLt
  have hc := c.isLt
  have hn := n.isLt
  funext d
  refine Fin.ext ?_
  match d with
  | ⟨0, _⟩ =>
    show (((((f.val * 3 + a.val) * 2 + b.val) * 16 + c.val) * 262144 + n.val) / 4194304) = G.val
    omega
  | ⟨1, _⟩ =>
    show (((((f.val * 3 + a.val) * 2 + b.val) * 16 + c.val) * 262144 + n.val) % 262144) = n.val
    omega
  | ⟨2, _⟩ =>
    show (((((f.val * 3 + a.val) * 2 + b.val) * 16 + c.val) * 262144 + n.val) / 262144 % 16) = c.val
    omega

theorem idx_v52_v53 (f : Fin 6) (a : Fin 3) (b : Fin 2) (c : Fin 16) (n : Fin 262144) (G : Fin 36)
    (hG : G.val = 6 * f.val + 2 * a.val + b.val) :
    idx_main_v52 (idx_main_v53 (ix5 f a b c n)) = ix2 G n := by
  have hf := f.isLt
  have ha := a.isLt
  have hb := b.isLt
  have hn := n.isLt
  funext d
  refine Fin.ext ?_
  match d with
  | ⟨0, _⟩ =>
    show (((((f.val * 3 + a.val) * 2 + b.val) * 1 + 0) * 262144 + n.val) / 262144) = G.val
    omega
  | ⟨1, _⟩ =>
    show (((((f.val * 3 + a.val) * 2 + b.val) * 1 + 0) * 262144 + n.val) % 262144) = n.val
    omega

/-- The sum of the interpolated value and the encoding at `(f, a, b, c, n)`: the split `36 → (6, 3, 2)` keeps the
    channel number, `g = 6·f + 2·a + b`. -/
theorem v54_at (f : Fin 6) (a : Fin 3) (b : Fin 2) (c : Fin 16) (n : Fin 262144) (G : Fin 36)
    (hG : G.val = 6 * f.val + 2 * a.val + b.val) :
    val_main_v54 (F := Ideal) x0 x1 x2 (ix5 f a b c n) = interp x0 x1 x2 n c G := by
  rw [val_main_v54_apply, val_main_v51_apply, val_main_v50_apply, val_main_v53_apply, val_main_v52_apply,
    idx_v50_v51 f a b c n G hG, idx_v52_v53 f a b c n G hG, v49_at, v11_at]
  rfl

theorem idx_v55_v56 (n : Fin 262144) (j : Fin 576) :
    idx_main_v55 (idx_main_v56 (ix2 n j))
      = ix5 (⟨j.val / 6 % 6, Nat.mod_lt _ (by decide)⟩ : Fin 6) (⟨j.val / 2 % 3, Nat.mod_lt _ (by decide)⟩ : Fin 3)
          (⟨j.val % 2, Nat.mod_lt _ (by decide)⟩ : Fin 2) (featOf j) n := by
  have hn := n.isLt
  have hj := j.isLt
  funext d
  refine Fin.ext ?_
  match d with
  | ⟨0, _⟩ => show (n.val * 576 + j.val) / 6 % 6 = j.val / 6 % 6; omega
  | ⟨1, _⟩ => show (n.val * 576 + j.val) / 2 % 3 = j.val / 2 % 3; omega
  | ⟨2, _⟩ => show (n.val * 576 + j.val) % 2 = j.val % 2; omega
  | ⟨3, _⟩ => show (n.val * 576 + j.val) / 36 % 16 = j.val / 36; omega
  | ⟨4, _⟩ => show (n.val * 576 + j.val) / 576 = n.val; omega

/-- THE REFERENCE'S RESULT IS THE SPECIFICATION, index by index. -/
theorem ref_is_spec :
    val_main_v56 (F := Ideal) x0 x1 x2 = Cert.TentSpec.result x0 x1 x2 := by
  funext i
  obtain ⟨n, j, rfl⟩ : ∃ (n : Fin 262144) (j : Fin 576), i = ix2 n j := ⟨i 0, i 1, eq_ix2 i⟩
  have hj := j.isLt
  rw [val_main_v56_apply, val_main_v55_apply, idx_v55_v56,
    v54_at x0 x1 x2 _ _ _ _ _ (chanOf j) (by show j.val % 36 = 6 * (j.val / 6 % 6) + 2 * (j.val / 2 % 3) + j.val % 2; omega)]
  rfl

end Cert.ReferenceIdeal.RefValue

end
-- ==== Proof.lean ====
/-
  A positional encoding followed by a one-dimensional linear interpolation of a 32-row table, computed by a tiled kernel
  and by a plain array program; both are shown to compute one function over the extended reals.

  For a point `n` and a channel `g = 6·f + 3·s + k` the encoding is `e = sin (p[n,k] · q[f])` (`s = 0`) or the cosine
  (`s = 1`); the position `y = (e + 1) · ½ · 31` gives the weight `w = y − ⌊y⌋` and the rows `lo = clamp ⌊y⌋`,
  `hi = clamp (lo + 1)` (clamped to `[0, 31]`); the result at `(n, 36·c + g)` is `T[g,c,lo] · (1 − w) + T[g,c,hi] · w + e`
  (Proof/Spec.lean). The array program gathers the two rows and forms that expression directly (Proof/RefIsSpec.lean).
  The kernel, on each of 128 blocks of 2048 points, instead sums over all 32 rows the product of the row with the
  weight `[lo = r] · (1 − w) + [hi = r] · w` (Proof/KernelAcc.lean); for real inputs every quantity is real, all but at
  most two terms vanish and the sum is the interpolation (Proof/TentLaw.lean, Proof/TentReal.lean) — the one place the
  precondition "every input is finite" is used, since for `lo = hi = 31` the surviving term `((1 − w) + w) · T[31]` must
  distribute (Proof/FiniteArgs.lean reads finiteness off the precondition). The blocks tile the result array
  (Proof/KernelArray.lean). No operation of the kernel is rewritten by the idealization, so that claim is `True`.
-/
import proofs.«109105_j28028956573735_2_alg».proof.Defs
import proofs.«109105_j28028956573735_2_alg».proof.Proof.Gen.Kernel
import proofs.«109105_j28028956573735_2_alg».proof.Proof.Gen.Kernel.Skeleton
import proofs.«109105_j28028956573735_2_alg».proof.Proof.Gen.Kernel.Launch
import proofs.«109105_j28028956573735_2_alg».proof.Proof.Gen.Kernel.Points
import proofs.«109105_j28028956573735_2_alg».proof.Proof.Gen.Kernel.Frame
import proofs.«109105_j28028956573735_2_alg».proof.Proof.Gen.KernelIdeal
import proofs.«109105_j28028956573735_2_alg».proof.Proof.Gen.KernelIdeal.Skeleton
import proofs.«109105_j28028956573735_2_alg».proof.Proof.Gen.KernelIdeal.Launch
import proofs.«109105_j28028956573735_2_alg».proof.Proof.Gen.KernelIdeal.Points
import proofs.«109105_j28028956573735_2_alg».proof.Proof.Gen.KernelIdeal.Frame
import proofs.«109105_j28028956573735_2_alg».proof.Proof.Gen.ReferenceIdeal
import proofs.«109105_j28028956573735_2_alg».proof.Proof.Gen.KernelIdeal.Value
import proofs.«109105_j28028956573735_2_alg».proof.Proof.Gen.ReferenceIdeal.Run
import proofs.«109105_j28028956573735_2_alg».proof.Proof.Gen.ReferenceIdeal.Read
import proofs.«109105_j28028956573735_2_alg».proof.Proof.Gen.Pre_finite_inputs
import proofs.«109105_j28028956573735_2_alg».proof.Proof.FiniteArgs
import proofs.«109105_j28028956573735_2_alg».proof.Proof.KernelArray
import proofs.«109105_j28028956573735_2_alg».proof.Proof.RefIsSpec
import Idealize.ShloMosaic.Adequacy
import Idealize.ShloMosaic.Init

noncomputable section

namespace Cert.Proof

open Idealize.ShloMosaic Idealize.ShloMosaic.TcCoe Idealize.SL.Sem

/-- The three programs run to the end without a fault and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from finite arguments that agree, the kernel's result array and the array program's
    result array both end at the specification's function of the arguments. -/
theorem algebraic : Cert.algebraic_KernelIdeal_ReferenceIdeal := by
  intro m ρ m' ρ' hpre hagree
  have hreal := fun c => Cert.FiniteArgs.real_of_fn _ _ _ (hpre c)
  refine ⟨_, Cert.KernelIdeal.ArrayValue.run m ρ (fun c => (hreal c).1) (fun c => (hreal c).2.1)
    (fun c => (hreal c).2.2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v56_eq, Cert.ReferenceIdeal.RefValue.ref_is_spec,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
